-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part2 {F : FTy → Type} [FloatOps F] (main_arg8 : FVec F S96 .f32) (main_arg9 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  main_v43

def fn_part1 {F : FTy → Type} [FloatOps F] (main_arg5 : FVec F S96 .f32) (main_arg6 : FVec F S96 .f32) (main_arg7 : FVec F S96 .f32) (main_arg8 : FVec F S96 .f32) (main_arg9 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_v33

def fn {F : FTy → Type} [FloatOps F] (main_arg0 : FVec F S100000x96 .f32) (main_arg1 : IVec S2x800000 32) (main_arg2 : FVec F S96x96 .f32) (main_arg3 : FVec F S96 .f32) (main_arg4 : FVec F S96x96 .f32) (main_arg5 : FVec F S96 .f32) (main_arg6 : FVec F S96 .f32) (main_arg7 : FVec F S96 .f32) (main_arg8 : FVec F S96 .f32) (main_arg9 : FVec F S96 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_v13 main_v16
-- ==== Kernel.lean ====
abbrev S100000x96 : Shape := ⟨2, ![100000, 96]⟩
abbrev S2x800000 : Shape := ⟨2, ![2, 800000]⟩
abbrev S96x96 : Shape := ⟨2, ![96, 96]⟩
abbrev S96 : Shape := ⟨1, ![96]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S5000x96 : Shape := ⟨2, ![5000, 96]⟩
abbrev S900000x96 : Shape := ⟨2, ![900000, 96]⟩
abbrev S1x96 : Shape := ⟨2, ![1, 96]⟩

abbrev nBuf : Space → Nat
  | .hbm => 89
  | .vmem => 24
  | .smem => 0
  | _ => 0

abbrev bufTy : (tb : Table) → Fin (tcTables nBuf tb) → BufTy
  | .hbm, ⟨0, _⟩ => ⟨S100000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96, .f32⟩
  | .hbm, ⟨7, _⟩ => ⟨S96, .f32⟩
  | .hbm, ⟨8, _⟩ => ⟨S96, .f32⟩
  | .hbm, ⟨9, _⟩ => ⟨S96, .f32⟩
  | .hbm, ⟨10, _⟩ => ⟨S100000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S1x800000, .i32⟩
  | .hbm, ⟨15, _⟩ => ⟨S800000, .i32⟩
  | .hbm, ⟨16, _⟩ => ⟨S900000, .i32⟩
  | .hbm, ⟨17, _⟩ => ⟨S_, .f32⟩
  | .hbm, ⟨18, _⟩ => ⟨S900000, .f32⟩
  | .hbm, ⟨19, _⟩ => ⟨S_, .f32⟩
  | .hbm, ⟨20, _⟩ => ⟨S100000, .f32⟩
  | .hbm, ⟨21, _⟩ => ⟨S900000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S_, .i32⟩
  | .hbm, ⟨44, _⟩ => ⟨S900000, .i32⟩
  | .hbm, ⟨45, _⟩ => ⟨S900000, .i1⟩
  | .hbm, ⟨46, _⟩ => ⟨S_, .i32⟩
  | .hbm, ⟨47, _⟩ => ⟨S900000, .i32⟩
  | .hbm, ⟨48, _⟩ => ⟨S900000, .i32⟩
  | .hbm, ⟨49, _⟩ => ⟨S900000, .i32⟩
  | .hbm, ⟨50, _⟩ => ⟨S900000x1, .i32⟩
  | .hbm, ⟨51, _⟩ => ⟨S900000, .f32⟩
  | .hbm, ⟨52, _⟩ => ⟨S900000, .f32⟩
  | .hbm, ⟨53, _⟩ => ⟨S100000x96, .f32⟩
  | .hbm, ⟨54, _⟩ => ⟨S_, .i32⟩
  | .hbm, ⟨55, _⟩ => ⟨S900000, .i32⟩
  | .hbm, ⟨56, _⟩ => ⟨S900000, .i1⟩
  | .hbm, ⟨57, _⟩ => ⟨S_, .i32⟩
  | .hbm, ⟨58, _⟩ => ⟨S900000, .i32⟩
  | .hbm, ⟨59, _⟩ => ⟨S900000, .i32⟩
  | .hbm, ⟨60, _⟩ => ⟨S900000, .i32⟩
  | .hbm, ⟨61, _⟩ => ⟨S900000x1, .i32⟩
  | .hbm, ⟨62, _⟩ => ⟨S900000x96, .f32⟩
  | .hbm, ⟨63, _⟩ => ⟨S900000x1, .f32⟩
  | .hbm, ⟨64, _⟩ => ⟨S900000x96, .f32⟩
  | .hbm, ⟨65, _⟩ => ⟨S900000x96, .f32⟩
  | .hbm, ⟨66, _⟩ => ⟨S_, .f32⟩
  | .hbm, ⟨67, _⟩ => ⟨S100000x96, .f32⟩
  | .hbm, ⟨68, _⟩ => ⟨S900000x1, .i32⟩
  | .hbm, ⟨69, _⟩ => ⟨S100000x96, .f32⟩
  | .hbm, ⟨70, _⟩ => ⟨S100000x96, .f32⟩
  | .hbm, ⟨71, _⟩ => ⟨S100000x96, .f32⟩
  | .hbm, ⟨72, _⟩ => ⟨S_, .i32⟩
  | .hbm, ⟨73, _⟩ => ⟨S900000, .i32⟩
  | .hbm, ⟨74, _⟩ => ⟨S900000, .i1⟩
  | .hbm, ⟨75, _⟩ => ⟨S_, .i32⟩
  | .hbm, ⟨76, _⟩ => ⟨S900000, .i32⟩
  | .hbm, ⟨77, _⟩ => ⟨S900000, .i32⟩
  | .hbm, ⟨78, _⟩ => ⟨S900000, .i32⟩
  | .hbm, ⟨79, _⟩ => ⟨S900000x1, .i32⟩
  | .hbm, ⟨80, _⟩ => ⟨S900000x96, .f32⟩
  | .hbm, ⟨81, _⟩ => ⟨S900000x1, .f32⟩
  | .hbm, ⟨82, _⟩ => ⟨S900000x96, .f32⟩
  | .hbm, ⟨83, _⟩ => ⟨S900000x96, .f32⟩
  | .hbm, ⟨84, _⟩ => ⟨S_, .f32⟩
  | .hbm, ⟨85, _⟩ => ⟨S100000x96, .f32⟩
  | .hbm, ⟨86, _⟩ => ⟨S900000x1, .i32⟩
  | .hbm, ⟨87, _⟩ => ⟨S100000x96, .f32⟩
  | .hbm, ⟨88, _⟩ => ⟨S100000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S96, .f32⟩
  | .local _ .vmem, ⟨8, _⟩ => ⟨S96, .f32⟩
  | .local _ .vmem, ⟨9, _⟩ => ⟨S96, .f32⟩
  | .local _ .vmem, ⟨10, _⟩ => ⟨S96, .f32⟩
  | .local _ .vmem, ⟨11, _⟩ => ⟨S96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S96x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S96, .f32⟩
  | .local _ .vmem, ⟨22, _⟩ => ⟨S5000x96, .f32⟩
  | .local _ .vmem, ⟨23, _⟩ => ⟨S5000x96, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S900000x1_S900000x96_0_1 : S900000x1.BroadcastsInDim S900000x96 (![0, 1] : Fin 2 → Fin S900000x96.rank)
  bcast_S_S100000x96 : S_.BroadcastsInDim S100000x96 (![] : Fin 0 → Fin S100000x96.rank)
  shapeCasts_S5000x96_S5000x96 : S5000x96.ShapeCasts S5000x96
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x96_S96x96_S5000x96_1_0_0_1_n_n_wf : DotDims.WF S5000x96 S96x96 S5000x96 [1] [0] [0] [1] [] []
  gather_S100000x96_S900000x1_S900000x96_1_0_n_n_0_1_196_wf : GatherDims.WF S100000x96 S900000x1 S900000x96 [1] [0] [] [0] [] 1 ![1, 96]
  scatter_S100000x96_S900000x1_S900000x96_1_0_0_1_wf : ScatterDims.WF S100000x96 S900000x1 S900000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S100000x96.size a
  hwx0_0 : ∀ i : grid0.Coords, EltTy.bits .f32 = 32 ∨ (Rect.block (s := S100000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S100000x96.size a
  hwx0_2 : ∀ i : grid0.Coords, EltTy.bits .f32 = 32 ∨ (Rect.block (s := S100000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S100000x96.size a
  hwx1_0 : ∀ i : grid1.Coords, EltTy.bits .f32 = 32 ∨ (Rect.block (s := S100000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96.size a ≤ S96.size a
  hwx1_1 : ∀ i : grid1.Coords, EltTy.bits .f32 = 32 ∨ (Rect.block (s := S96) S96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96.size a ≤ S96.size a
  hwx1_3 : ∀ i : grid1.Coords, EltTy.bits .f32 = 32 ∨ (Rect.block (s := S96) S96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96.size a ≤ S96.size a
  hwx1_4 : ∀ i : grid1.Coords, EltTy.bits .f32 = 32 ∨ (Rect.block (s := S96) S96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96.size a ≤ S96.size a
  hwx1_5 : ∀ i : grid1.Coords, EltTy.bits .f32 = 32 ∨ (Rect.block (s := S96) S96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S100000x96.size a
  hwx1_6 : ∀ i : grid1.Coords, EltTy.bits .f32 = 32 ∨ (Rect.block (s := S100000x96) S5000x96.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S100000x96.size a
  hwx2_0 : ∀ i : grid2.Coords, EltTy.bits .f32 = 32 ∨ (Rect.block (s := S100000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S100000x96.size a
  hwx2_2 : ∀ i : grid2.Coords, EltTy.bits .f32 = 32 ∨ (Rect.block (s := S100000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S100000x96.size a
  hwx3_0 : ∀ i : grid3.Coords, EltTy.bits .f32 = 32 ∨ (Rect.block (s := S100000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96.size a ≤ S96.size a
  hwx3_1 : ∀ i : grid3.Coords, EltTy.bits .f32 = 32 ∨ (Rect.block (s := S96) S96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S100000x96.size a
  hwx3_2 : ∀ i : grid3.Coords, EltTy.bits .f32 = 32 ∨ (Rect.block (s := S100000x96) S5000x96.size (cc3_transform_2 i) (hinb3_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S100000x96_S900000x1_S900000x96_1_0_n_n_0_1_196 : GatherDims S100000x96 S900000x1 S900000x96 where
  offsetDims := [1]
  collapsedSliceDims := [0]
  operandBatchingDims := []
  startIndicesBatchingDims := []
  startIndexMap := [0]
  indexVectorDim := 1
  sliceSizes := ![1, 96]
  wf := gather_S100000x96_S900000x1_S900000x96_1_0_n_n_0_1_196_wf
def scatter_S100000x96_S900000x1_S900000x96_1_0_0_1 : ScatterDims S100000x96 S900000x1 S900000x96 where
  updateWindowDims := [1]
  insertedWindowDims := [0]
  scatterDimsToOperandDims := [0]
  indexVectorDim := 1
  wf := scatter_S100000x96_S900000x1_S900000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x96 : Shape := ⟨2, ![100000, 96]⟩
abbrev S2x800000 : Shape := ⟨2, ![2, 800000]⟩
abbrev S96x96 : Shape := ⟨2, ![96, 96]⟩
abbrev S96 : Shape := ⟨1, ![96]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x96 : Shape := ⟨2, ![900000, 96]⟩
abbrev S1x96 : Shape := ⟨2, ![1, 96]⟩

abbrev nBuf : Space → Nat
  | .hbm => 116
  | .vmem => 0
  | .smem => 0
  | _ => 0

abbrev bufTy : (tb : Table) → Fin (tcTables nBuf tb) → BufTy
  | .hbm, ⟨0, _⟩ => ⟨S100000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96, .f32⟩
  | .hbm, ⟨7, _⟩ => ⟨S96, .f32⟩
  | .hbm, ⟨8, _⟩ => ⟨S96, .f32⟩
  | .hbm, ⟨9, _⟩ => ⟨S96, .f32⟩
  | .hbm, ⟨10, _⟩ => ⟨S100000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S1x800000, .i32⟩
  | .hbm, ⟨15, _⟩ => ⟨S800000, .i32⟩
  | .hbm, ⟨16, _⟩ => ⟨S900000, .i32⟩
  | .hbm, ⟨17, _⟩ => ⟨S_, .f32⟩
  | .hbm, ⟨18, _⟩ => ⟨S900000, .f32⟩
  | .hbm, ⟨19, _⟩ => ⟨S_, .f32⟩
  | .hbm, ⟨20, _⟩ => ⟨S100000, .f32⟩
  | .hbm, ⟨21, _⟩ => ⟨S900000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S_, .i32⟩
  | .hbm, ⟨44, _⟩ => ⟨S900000, .i32⟩
  | .hbm, ⟨45, _⟩ => ⟨S900000, .i1⟩
  | .hbm, ⟨46, _⟩ => ⟨S_, .i32⟩
  | .hbm, ⟨47, _⟩ => ⟨S900000, .i32⟩
  | .hbm, ⟨48, _⟩ => ⟨S900000, .i32⟩
  | .hbm, ⟨49, _⟩ => ⟨S900000, .i32⟩
  | .hbm, ⟨50, _⟩ => ⟨S900000x1, .i32⟩
  | .hbm, ⟨51, _⟩ => ⟨S900000, .f32⟩
  | .hbm, ⟨52, _⟩ => ⟨S900000, .f32⟩
  | .hbm, ⟨53, _⟩ => ⟨S100000x96, .f32⟩
  | .hbm, ⟨54, _⟩ => ⟨S_, .i32⟩
  | .hbm, ⟨55, _⟩ => ⟨S900000, .i32⟩
  | .hbm, ⟨56, _⟩ => ⟨S900000, .i1⟩
  | .hbm, ⟨57, _⟩ => ⟨S_, .i32⟩
  | .hbm, ⟨58, _⟩ => ⟨S900000, .i32⟩
  | .hbm, ⟨59, _⟩ => ⟨S900000, .i32⟩
  | .hbm, ⟨60, _⟩ => ⟨S900000, .i32⟩
  | .hbm, ⟨61, _⟩ => ⟨S900000x1, .i32⟩
  | .hbm, ⟨62, _⟩ => ⟨S900000x96, .f32⟩
  | .hbm, ⟨63, _⟩ => ⟨S900000x1, .f32⟩
  | .hbm, ⟨64, _⟩ => ⟨S900000x96, .f32⟩
  | .hbm, ⟨65, _⟩ => ⟨S900000x96, .f32⟩
  | .hbm, ⟨66, _⟩ => ⟨S_, .f32⟩
  | .hbm, ⟨67, _⟩ => ⟨S100000x96, .f32⟩
  | .hbm, ⟨68, _⟩ => ⟨S900000x1, .i32⟩
  | .hbm, ⟨69, _⟩ => ⟨S100000x96, .f32⟩
  | .hbm, ⟨70, _⟩ => ⟨S1x96, .f32⟩
  | .hbm, ⟨71, _⟩ => ⟨S100000x96, .f32⟩
  | .hbm, ⟨72, _⟩ => ⟨S100000x96, .f32⟩
  | .hbm, ⟨73, _⟩ => ⟨S_, .f32⟩
  | .hbm, ⟨74, _⟩ => ⟨S100000x96, .f32⟩
  | .hbm, ⟨75, _⟩ => ⟨S100000x96, .i1⟩
  | .hbm, ⟨76, _⟩ => ⟨S_, .f32⟩
  | .hbm, ⟨77, _⟩ => ⟨S100000x96, .f32⟩
  | .hbm, ⟨78, _⟩ => ⟨S100000x96, .f32⟩
  | .hbm, ⟨79, _⟩ => ⟨S100000x96, .f32⟩
  | .hbm, ⟨80, _⟩ => ⟨S1x96, .f32⟩
  | .hbm, ⟨81, _⟩ => ⟨S100000x96, .f32⟩
  | .hbm, ⟨82, _⟩ => ⟨S100000x96, .f32⟩
  | .hbm, ⟨83, _⟩ => ⟨S_, .f32⟩
  | .hbm, ⟨84, _⟩ => ⟨S96, .f32⟩
  | .hbm, ⟨85, _⟩ => ⟨S96, .f32⟩
  | .hbm, ⟨86, _⟩ => ⟨S96, .f32⟩
  | .hbm, ⟨87, _⟩ => ⟨S1x96, .f32⟩
  | .hbm, ⟨88, _⟩ => ⟨S100000x96, .f32⟩
  | .hbm, ⟨89, _⟩ => ⟨S100000x96, .f32⟩
  | .hbm, ⟨90, _⟩ => ⟨S1x96, .f32⟩
  | .hbm, ⟨91, _⟩ => ⟨S100000x96, .f32⟩
  | .hbm, ⟨92, _⟩ => ⟨S100000x96, .f32⟩
  | .hbm, ⟨93, _⟩ => ⟨S1x96, .f32⟩
  | .hbm, ⟨94, _⟩ => ⟨S100000x96, .f32⟩
  | .hbm, ⟨95, _⟩ => ⟨S100000x96, .f32⟩
  | .hbm, ⟨96, _⟩ => ⟨S100000x96, .f32⟩
  | .hbm, ⟨97, _⟩ => ⟨S_, .i32⟩
  | .hbm, ⟨98, _⟩ => ⟨S900000, .i32⟩
  | .hbm, ⟨99, _⟩ => ⟨S900000, .i1⟩
  | .hbm, ⟨100, _⟩ => ⟨S_, .i32⟩
  | .hbm, ⟨101, _⟩ => ⟨S900000, .i32⟩
  | .hbm, ⟨102, _⟩ => ⟨S900000, .i32⟩
  | .hbm, ⟨103, _⟩ => ⟨S900000, .i32⟩
  | .hbm, ⟨104, _⟩ => ⟨S900000x1, .i32⟩
  | .hbm, ⟨105, _⟩ => ⟨S900000x96, .f32⟩
  | .hbm, ⟨106, _⟩ => ⟨S900000x1, .f32⟩
  | .hbm, ⟨107, _⟩ => ⟨S900000x96, .f32⟩
  | .hbm, ⟨108, _⟩ => ⟨S900000x96, .f32⟩
  | .hbm, ⟨109, _⟩ => ⟨S_, .f32⟩
  | .hbm, ⟨110, _⟩ => ⟨S100000x96, .f32⟩
  | .hbm, ⟨111, _⟩ => ⟨S900000x1, .i32⟩
  | .hbm, ⟨112, _⟩ => ⟨S100000x96, .f32⟩
  | .hbm, ⟨113, _⟩ => ⟨S1x96, .f32⟩
  | .hbm, ⟨114, _⟩ => ⟨S100000x96, .f32⟩
  | .hbm, ⟨115, _⟩ => ⟨S100000x96, .f32⟩
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x96_0_1 : S900000x1.BroadcastsInDim S900000x96 (![0, 1] : Fin 2 → Fin S900000x96.rank)
  bcast_S_S100000x96 : S_.BroadcastsInDim S100000x96 (![] : Fin 0 → Fin S100000x96.rank)
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  bcast_S_S96 : S_.BroadcastsInDim S96 (![] : Fin 0 → Fin S96.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x96_S96x96_S100000x96_1_0_0_1_n_n_wf : DotDims.WF S100000x96 S96x96 S100000x96 [1] [0] [0] [1] [] []
  gather_S100000x96_S900000x1_S900000x96_1_0_n_n_0_1_196_wf : GatherDims.WF S100000x96 S900000x1 S900000x96 [1] [0] [] [0] [] 1 ![1, 96]
  scatter_S100000x96_S900000x1_S900000x96_1_0_0_1_wf : ScatterDims.WF S100000x96 S900000x1 S900000x96 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x96_S96x96_S100000x96_1_0_0_1_n_n : DotDims S100000x96 S96x96 S100000x96 where
  lhsContracting := [1]
  rhsContracting := [0]
  lhsNonContracting := [0]
  rhsNonContracting := [1]
  lhsBatch := []
  rhsBatch := []
  wf := dot_S100000x96_S96x96_S100000x96_1_0_0_1_n_n_wf
def gather_S100000x96_S900000x1_S900000x96_1_0_n_n_0_1_196 : GatherDims S100000x96 S900000x1 S900000x96 where
  offsetDims := [1]
  collapsedSliceDims := [0]
  operandBatchingDims := []
  startIndicesBatchingDims := []
  startIndexMap := [0]
  indexVectorDim := 1
  sliceSizes := ![1, 96]
  wf := gather_S100000x96_S900000x1_S900000x96_1_0_n_n_0_1_196_wf
def scatter_S100000x96_S900000x1_S900000x96_1_0_0_1 : ScatterDims S100000x96 S900000x1 S900000x96 where
  updateWindowDims := [1]
  insertedWindowDims := [0]
  scatterDimsToOperandDims := [0]
  indexVectorDim := 1
  wf := scatter_S100000x96_S900000x1_S900000x96_1_0_0_1_wf

class Facts : Prop extends Facts₀ where

variable [Facts]
-- ==== Proof.Spec.lean ====
/-
  THE FUNCTION BOTH PROGRAMS COMPUTE: a two-layer graph convolution, written once over the host operations.

  From the edge list (two rows of node numbers) the programs build a source list and a destination list — each edge row
  followed by the nodes themselves, the self loops —, count each node's incoming entries (its degree), and weight every
  entry by 1/sqrt(degree of its source) · 1/sqrt(degree of its destination). One layer multiplies the node features by a
  weight matrix, gathers each entry's source row, scales it by the entry's weight and sums the scaled rows into the entry's
  destination row. Between the layers a bias row is added, negative values are scaled by 0.05, and each column is shifted
  by a mean, scaled by 1/sqrt(variance + 1e-5) and by gamma, and shifted by beta; after the second layer a bias row is
  added. Each piece below is that step as the array operations state it, over the extended reals; the pieces are
  arguments of one another, so that a proof never has to open a gather or a scatter-add: it shows that the values going
  into one are the same.
-/
import proofs.«128679_j89386859365068_1_alg».proof.ReferenceIdeal
import Idealize.ShloMosaic.PureOps.Ideal

noncomputable section

namespace Cert.Spec

open Idealize.ShloMosaic Cert.ReferenceIdeal
open Cert.ReferenceIdeal.Facts₀

variable [Cert.ReferenceIdeal.Facts]

/-- The source of every entry: the edge list's first row, then every node once (its self loop). -/
def src (e : IVec S2x800000 32) : IVec S900000 32 :=
  concatenate S900000 0 [⟨S800000, shapeCast S800000 (extractStridedSlice S1x800000 ![0, 0] e slices_S2x800000_S1x800000_0_0) shapeCasts_S1x800000_S800000⟩, ⟨S100000, iotaInDim S100000 32 0⟩] concatenates_S800000_S100000_S900000_d0

/-- The destination of every entry: the edge list's second row, then every node once. -/
def dst (e : IVec S2x800000 32) : IVec S900000 32 :=
  concatenate S900000 0 [⟨S800000, shapeCast S800000 (extractStridedSlice S1x800000 ![1, 0] e slices_S2x800000_S1x800000_1_0) shapeCasts_S1x800000_S800000⟩, ⟨S100000, iotaInDim S100000 32 0⟩] concatenates_S800000_S100000_S900000_d0

/-- A node's degree: the number of entries whose destination it is (ones summed into zeros). -/
def deg (d : IVec S900000 32) : FVec Ideal S100000 .f32 :=
  Host.scatterAdd (F := Ideal) scatter_S100000_S900000x1_S900000_n_0_0_1 (broadcastInDim S100000 ![] bcast_S_S100000 (constant (F := Ideal) S_ .f32 0x00000000#32)) (broadcastInDim S900000x1 ![0] bcast_S900000_S900000x1_0 d) (broadcastInDim S900000 ![] bcast_S_S900000 (constant (F := Ideal) S_ .f32 0x3F800000#32))

/-- Which nodes have a positive degree. -/
def degPos (d : IVec S900000 32) : IVec S100000 1 :=
  cmpf (F := Ideal) .ogt (deg d) (broadcastInDim S100000 ![] bcast_S_S100000 (constant (F := Ideal) S_ .f32 0x00000000#32))

/-- 1/sqrt of the degree, the degree first raised to at least 1e-12. -/
def degRsqrt (d : IVec S900000 32) : FVec Ideal S100000 .f32 :=
  Host.rsqrt (F := Ideal) (maximumf (deg d) (broadcastInDim S100000 ![] bcast_S_S100000 (constant (F := Ideal) S_ .f32 0x2B8CBCCC#32)))

/-- A node's factor: 1/sqrt(degree) where the degree is positive, the given scalar elsewhere. -/
def dinv (p : IVec S100000 1) (r : FVec Ideal S100000 .f32) (z : FVec Ideal S_ .f32) : FVec Ideal S100000 .f32 :=
  select p r (broadcastInDim S100000 ![] bcast_S_S100000 (id z))

/-- A node number made non-negative: a negative one counts from the end. -/
def wrap (x : IVec S900000 32) : IVec S900000 32 :=
  select (cmpi .slt x (broadcastInDim S900000 ![] bcast_S_S900000 (constantI S_ 32 0#32))) (addi x (broadcastInDim S900000 ![] bcast_S_S900000 (constantI S_ 32 100000#32))) x

/-- Every entry's weight: its source's factor times its destination's. -/
def norm (v : FVec Ideal S100000 .f32) (s d : IVec S900000 32) : FVec Ideal S900000 .f32 :=
  mulf (F := Ideal) (Host.gather gather_S100000_S900000x1_S900000_n_0_n_n_0_1_1 v (broadcastInDim S900000x1 ![0] bcast_S900000_S900000x1_0 (wrap s))) (Host.gather gather_S100000_S900000x1_S900000_n_0_n_n_0_1_1 v (broadcastInDim S900000x1 ![0] bcast_S900000_S900000x1_0 (wrap d)))

/-- The aggregation: every entry's source row of `h`, scaled by the entry's weight, summed into its destination row. -/
def agg (h : FVec Ideal S100000x96 .f32) (s d : IVec S900000 32) (n : FVec Ideal S900000 .f32) : FVec Ideal S100000x96 .f32 :=
  Host.scatterAdd (F := Ideal) scatter_S100000x96_S900000x1_S900000x96_1_0_0_1 (broadcastInDim S100000x96 ![] bcast_S_S100000x96 (constant (F := Ideal) S_ .f32 0x00000000#32)) (broadcastInDim S900000x1 ![0] bcast_S900000_S900000x1_0 d) (mulf (F := Ideal) (Host.gather gather_S100000x96_S900000x1_S900000x96_1_0_n_n_0_1_196 h (broadcastInDim S900000x1 ![0] bcast_S900000_S900000x1_0 (wrap s))) (broadcastInDim S900000x96 ![0, 1] bcast_S900000x1_S900000x96_0_1 (broadcastInDim S900000x1 ![0] bcast_S900000_S900000x1_0 n)))

/-- The node features times a weight matrix. -/
def mm (x : FVec Ideal S100000x96 .f32) (w : FVec Ideal S96x96 .f32) : FVec Ideal S100000x96 .f32 :=
  Host.dotGeneral (F := Ideal) dot_S100000x96_S96x96_S100000x96_1_0_0_1_n_n none x w

/-- One row of 96 numbers repeated for every node. -/
def rows (v : FVec Ideal S96 .f32) : FVec Ideal S100000x96 .f32 :=
  broadcastInDim S100000x96 ![0, 1] bcast_S1x96_S100000x96_0_1 (broadcastInDim S1x96 ![1] bcast_S96_S1x96_1 v)

/-- A bias row added to every node's row. -/
def bias (x : FVec Ideal S100000x96 .f32) (b : FVec Ideal S96 .f32) : FVec Ideal S100000x96 .f32 :=
  addf (F := Ideal) x (rows b)

/-- Negative values scaled by 0.05, the others kept. -/
def leaky (y : FVec Ideal S100000x96 .f32) : FVec Ideal S100000x96 .f32 :=
  select (cmpf (F := Ideal) .oge y (broadcastInDim S100000x96 ![] bcast_S_S100000x96 (constant (F := Ideal) S_ .f32 0x00000000#32))) y (mulf (F := Ideal) (broadcastInDim S100000x96 ![] bcast_S_S100000x96 (constant (F := Ideal) S_ .f32 0x3D4CCCCD#32)) y)

/-- 1/sqrt(variance + 1e-5), per column. -/
def invStd (vr : FVec Ideal S96 .f32) : FVec Ideal S96 .f32 :=
  Host.rsqrt (F := Ideal) (addf (F := Ideal) vr (broadcastInDim S96 ![] bcast_S_S96 (constant (F := Ideal) S_ .f32 0x3727C5AC#32)))

/-- The step between the layers: bias, the scaling of negative values, then per column (y − mean) · invStd · gamma + beta. -/
def bn (x : FVec Ideal S100000x96 .f32) (b g be mn vr : FVec Ideal S96 .f32) : FVec Ideal S100000x96 .f32 :=
  addf (F := Ideal) (mulf (F := Ideal) (mulf (F := Ideal) (subf (F := Ideal) (leaky (bias x b)) (rows mn)) (rows (invStd vr))) (rows g)) (rows be)

/-- The whole network, of the ten arguments. -/
def net (x : FVec Ideal S100000x96 .f32) (e : IVec S2x800000 32) (w1 : FVec Ideal S96x96 .f32) (b1 : FVec Ideal S96 .f32) (w2 : FVec Ideal S96x96 .f32)
    (b2 g be mn vr : FVec Ideal S96 .f32) : FVec Ideal S100000x96 .f32 :=
  let n := norm (dinv (degPos (dst e)) (degRsqrt (dst e)) (constant (F := Ideal) S_ .f32 0x00000000#32)) (src e) (dst e)
  bias (agg (mm (bn (agg (mm x w1) (src e) (dst e) n) b1 g be mn vr) w2) (src e) (dst e) n) b2

end Cert.Spec

end
-- ==== Proof.KernelHost.lean ====
/-
  THE KERNEL PROGRAM'S HOST STRETCHES, each read from any contents.

  Around its four launches the kernel program runs the reference's own host operations, in five stretches. From ANY
  contents: the first leaves the source list, the destination list, and — from the degrees — which nodes have a positive
  degree and 1/sqrt of each degree; the second each node's factor; the third every entry's weight (these three come before
  the first launch); the stretch between the first and the second launch leaves the aggregation of the first product; the
  stretch before the last launch the aggregation of the second product — each the matching piece of `Spec` applied to the
  few buffers the stretch reads. Every buffer a later segment still reads is kept.
-/
import proofs.«128679_j89386859365068_1_alg».proof.Proof.Gen.KernelIdeal.Launch
import proofs.«128679_j89386859365068_1_alg».proof.Proof.Spec
import Idealize.ShloMosaic.Lib.StableHlo.Run

set_option maxRecDepth 16384

noncomputable section

namespace Cert.KernelIdeal.HostStretch

open Cert.KernelIdeal Cert.KernelIdeal.Gen
open Idealize.ShloMosaic Idealize.ShloMosaic.TcCoe Idealize.SL.Sem Idealize.ShloMosaic.StableHlo

variable [Cert.ReferenceIdeal.Facts]
variable (W : Valuation τ sig (Elt Ideal))

/-! ## The first stretch: the lists and the degrees -/

set_option maxHeartbeats 4000000 in
theorem p_src : after (hostOps0 (F := Ideal)) W (Proc.devRef .tc main_v3) = Cert.Spec.src (W (Proc.devRef .tc main_arg1)) := by
  dsimp only [hostOps0]; after_results; rfl
set_option maxHeartbeats 4000000 in
theorem p_dst : after (hostOps0 (F := Ideal)) W (Proc.devRef .tc main_v6) = Cert.Spec.dst (W (Proc.devRef .tc main_arg1)) := by
  dsimp only [hostOps0]; after_results; rfl
set_option maxHeartbeats 4000000 in
theorem p_pos : after (hostOps0 (F := Ideal)) W (Proc.devRef .tc main_v12) = Cert.Spec.degPos (Cert.Spec.dst (W (Proc.devRef .tc main_arg1))) := by
  dsimp only [hostOps0]; after_results; rfl
set_option maxHeartbeats 4000000 in
theorem p_rsq : after (hostOps0 (F := Ideal)) W (Proc.devRef .tc main_v15) = Cert.Spec.degRsqrt (Cert.Spec.dst (W (Proc.devRef .tc main_arg1))) := by
  dsimp only [hostOps0]; after_results; rfl
set_option maxHeartbeats 4000000 in
theorem p_cst : after (hostOps0 (F := Ideal)) W (Proc.devRef .tc main_cst_3) = constant (F := Ideal) Cert.ReferenceIdeal.S_ .f32 0x00000000#32 := by
  dsimp only [hostOps0]; after_results
theorem p_arg0 : after (hostOps0 (F := Ideal)) W (Proc.devRef .tc main_arg0) = W (Proc.devRef .tc main_arg0) := by
  after_results_simp
theorem p_arg2 : after (hostOps0 (F := Ideal)) W (Proc.devRef .tc main_arg2) = W (Proc.devRef .tc main_arg2) := by
  after_results_simp
theorem p_arg3 : after (hostOps0 (F := Ideal)) W (Proc.devRef .tc main_arg3) = W (Proc.devRef .tc main_arg3) := by
  after_results_simp
theorem p_arg4 : after (hostOps0 (F := Ideal)) W (Proc.devRef .tc main_arg4) = W (Proc.devRef .tc main_arg4) := by
  after_results_simp
theorem p_arg5 : after (hostOps0 (F := Ideal)) W (Proc.devRef .tc main_arg5) = W (Proc.devRef .tc main_arg5) := by
  after_results_simp
theorem p_arg6 : after (hostOps0 (F := Ideal)) W (Proc.devRef .tc main_arg6) = W (Proc.devRef .tc main_arg6) := by
  after_results_simp
theorem p_arg7 : after (hostOps0 (F := Ideal)) W (Proc.devRef .tc main_arg7) = W (Proc.devRef .tc main_arg7) := by
  after_results_simp
theorem p_arg8 : after (hostOps0 (F := Ideal)) W (Proc.devRef .tc main_arg8) = W (Proc.devRef .tc main_arg8) := by
  after_results_simp
theorem p_arg9 : after (hostOps0 (F := Ideal)) W (Proc.devRef .tc main_arg9) = W (Proc.devRef .tc main_arg9) := by
  after_results_simp

/-! ## The second stretch: the nodes' factors -/

theorem q_dinv : after (hostOps0_1 (F := Ideal)) W (Proc.devRef .tc main_v16)
    = Cert.Spec.dinv (W (Proc.devRef .tc main_v12)) (W (Proc.devRef .tc main_v15)) (W (Proc.devRef .tc main_cst_3)) := by
  after_results_simp <;> rfl
theorem q_v3 : after (hostOps0_1 (F := Ideal)) W (Proc.devRef .tc main_v3) = W (Proc.devRef .tc main_v3) := by
  after_results_simp
theorem q_v6 : after (hostOps0_1 (F := Ideal)) W (Proc.devRef .tc main_v6) = W (Proc.devRef .tc main_v6) := by
  after_results_simp
theorem q_arg0 : after (hostOps0_1 (F := Ideal)) W (Proc.devRef .tc main_arg0) = W (Proc.devRef .tc main_arg0) := by
  after_results_simp
theorem q_arg2 : after (hostOps0_1 (F := Ideal)) W (Proc.devRef .tc main_arg2) = W (Proc.devRef .tc main_arg2) := by
  after_results_simp
theorem q_arg3 : after (hostOps0_1 (F := Ideal)) W (Proc.devRef .tc main_arg3) = W (Proc.devRef .tc main_arg3) := by
  after_results_simp
theorem q_arg4 : after (hostOps0_1 (F := Ideal)) W (Proc.devRef .tc main_arg4) = W (Proc.devRef .tc main_arg4) := by
  after_results_simp
theorem q_arg5 : after (hostOps0_1 (F := Ideal)) W (Proc.devRef .tc main_arg5) = W (Proc.devRef .tc main_arg5) := by
  after_results_simp
theorem q_arg6 : after (hostOps0_1 (F := Ideal)) W (Proc.devRef .tc main_arg6) = W (Proc.devRef .tc main_arg6) := by
  after_results_simp
theorem q_arg7 : after (hostOps0_1 (F := Ideal)) W (Proc.devRef .tc main_arg7) = W (Proc.devRef .tc main_arg7) := by
  after_results_simp
theorem q_arg8 : after (hostOps0_1 (F := Ideal)) W (Proc.devRef .tc main_arg8) = W (Proc.devRef .tc main_arg8) := by
  after_results_simp
theorem q_arg9 : after (hostOps0_1 (F := Ideal)) W (Proc.devRef .tc main_arg9) = W (Proc.devRef .tc main_arg9) := by
  after_results_simp

/-! ## The third stretch: the entries' weights -/

set_option maxHeartbeats 4000000 in
theorem r_norm : after (hostOps0_2 (F := Ideal)) W (Proc.devRef .tc main_v31)
    = Cert.Spec.norm (W (Proc.devRef .tc main_v16)) (W (Proc.devRef .tc main_v3)) (W (Proc.devRef .tc main_v6)) := by
  after_results_simp <;> rfl
theorem r_v3 : after (hostOps0_2 (F := Ideal)) W (Proc.devRef .tc main_v3) = W (Proc.devRef .tc main_v3) := by
  after_results_simp
theorem r_v6 : after (hostOps0_2 (F := Ideal)) W (Proc.devRef .tc main_v6) = W (Proc.devRef .tc main_v6) := by
  after_results_simp
theorem r_arg0 : after (hostOps0_2 (F := Ideal)) W (Proc.devRef .tc main_arg0) = W (Proc.devRef .tc main_arg0) := by
  after_results_simp
theorem r_arg2 : after (hostOps0_2 (F := Ideal)) W (Proc.devRef .tc main_arg2) = W (Proc.devRef .tc main_arg2) := by
  after_results_simp
theorem r_arg3 : after (hostOps0_2 (F := Ideal)) W (Proc.devRef .tc main_arg3) = W (Proc.devRef .tc main_arg3) := by
  after_results_simp
theorem r_arg4 : after (hostOps0_2 (F := Ideal)) W (Proc.devRef .tc main_arg4) = W (Proc.devRef .tc main_arg4) := by
  after_results_simp
theorem r_arg5 : after (hostOps0_2 (F := Ideal)) W (Proc.devRef .tc main_arg5) = W (Proc.devRef .tc main_arg5) := by
  after_results_simp
theorem r_arg6 : after (hostOps0_2 (F := Ideal)) W (Proc.devRef .tc main_arg6) = W (Proc.devRef .tc main_arg6) := by
  after_results_simp
theorem r_arg7 : after (hostOps0_2 (F := Ideal)) W (Proc.devRef .tc main_arg7) = W (Proc.devRef .tc main_arg7) := by
  after_results_simp
theorem r_arg8 : after (hostOps0_2 (F := Ideal)) W (Proc.devRef .tc main_arg8) = W (Proc.devRef .tc main_arg8) := by
  after_results_simp
theorem r_arg9 : after (hostOps0_2 (F := Ideal)) W (Proc.devRef .tc main_arg9) = W (Proc.devRef .tc main_arg9) := by
  after_results_simp

/-! ## Between the first and the second launch: the first aggregation -/

set_option maxHeartbeats 4000000 in
theorem b_agg : after (hostOps1 (F := Ideal)) W (Proc.devRef .tc main_v45)
    = Cert.Spec.agg (W (Proc.devRef .tc main_v32)) (W (Proc.devRef .tc main_v3)) (W (Proc.devRef .tc main_v6)) (W (Proc.devRef .tc main_v31)) := by
  after_results_simp <;> rfl
theorem b_v3 : after (hostOps1 (F := Ideal)) W (Proc.devRef .tc main_v3) = W (Proc.devRef .tc main_v3) := by
  after_results_simp
theorem b_v6 : after (hostOps1 (F := Ideal)) W (Proc.devRef .tc main_v6) = W (Proc.devRef .tc main_v6) := by
  after_results_simp
theorem b_v31 : after (hostOps1 (F := Ideal)) W (Proc.devRef .tc main_v31) = W (Proc.devRef .tc main_v31) := by
  after_results_simp
theorem b_arg3 : after (hostOps1 (F := Ideal)) W (Proc.devRef .tc main_arg3) = W (Proc.devRef .tc main_arg3) := by
  after_results_simp
theorem b_arg4 : after (hostOps1 (F := Ideal)) W (Proc.devRef .tc main_arg4) = W (Proc.devRef .tc main_arg4) := by
  after_results_simp
theorem b_arg5 : after (hostOps1 (F := Ideal)) W (Proc.devRef .tc main_arg5) = W (Proc.devRef .tc main_arg5) := by
  after_results_simp
theorem b_arg6 : after (hostOps1 (F := Ideal)) W (Proc.devRef .tc main_arg6) = W (Proc.devRef .tc main_arg6) := by
  after_results_simp
theorem b_arg7 : after (hostOps1 (F := Ideal)) W (Proc.devRef .tc main_arg7) = W (Proc.devRef .tc main_arg7) := by
  after_results_simp
theorem b_arg8 : after (hostOps1 (F := Ideal)) W (Proc.devRef .tc main_arg8) = W (Proc.devRef .tc main_arg8) := by
  after_results_simp
theorem b_arg9 : after (hostOps1 (F := Ideal)) W (Proc.devRef .tc main_arg9) = W (Proc.devRef .tc main_arg9) := by
  after_results_simp

/-! ## Before the last launch: the second aggregation -/

set_option maxHeartbeats 4000000 in
theorem c_agg : after (hostOps3 (F := Ideal)) W (Proc.devRef .tc main_v60)
    = Cert.Spec.agg (W (Proc.devRef .tc main_v47)) (W (Proc.devRef .tc main_v3)) (W (Proc.devRef .tc main_v6)) (W (Proc.devRef .tc main_v31)) := by
  after_results_simp <;> rfl
theorem c_arg5 : after (hostOps3 (F := Ideal)) W (Proc.devRef .tc main_arg5) = W (Proc.devRef .tc main_arg5) := by
  after_results_simp

end Cert.KernelIdeal.HostStretch

end
-- ==== Proof.RegionBias.lean ====
/-
  THE LAST LAUNCH: a bias row added to every node's row, twenty blocks of 5000 rows.

  Point `t` of the grid reads rows 5000·t … 5000·t + 4999 of the aggregated features and the whole bias row, and writes
  back the same rows with the bias added to each. An entry (r, q) of the result therefore depends on the input's entry
  (r, q) and on the bias's entry q only; the twenty blocks tile the 100000 rows (row r is in block r / 5000), so the
  array the launch leaves is the whole-array sum `Spec.bias` of the two arrays the launch finds.
-/
import proofs.«128679_j89386859365068_1_alg».proof.Proof.Gen.KernelIdeal.Frame
import proofs.«128679_j89386859365068_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BiasRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A row of 96 numbers repeated for every node, read at (r, q): the row's entry q. -/
theorem rows_apply [Cert.ReferenceIdeal.Facts] (v : FVec Ideal Cert.ReferenceIdeal.S96 .f32) (i : Cert.ReferenceIdeal.S100000x96.Idx) :
    Cert.Spec.rows v i = v (ix1 (i 1)) := by
  unfold Cert.Spec.rows
  refine (broadcastInDim_apply _ _ _ i (ix2 (0 : Fin 1) (i 1)) (fun a => ?_)).trans ?_
  · match a with
    | ⟨0, _⟩ => rfl
    | ⟨1, _⟩ => rfl
  · refine broadcastInDim_apply _ _ v (ix2 (0 : Fin 1) (i 1)) (ix1 (i 1)) (fun a => ?_)
    match a with
    | ⟨0, _⟩ => rfl

/-- The bias added, read at an index. -/
theorem bias_apply [Cert.ReferenceIdeal.Facts] (x : FVec Ideal Cert.ReferenceIdeal.S100000x96 .f32) (b : FVec Ideal Cert.ReferenceIdeal.S96 .f32)
    (i : Cert.ReferenceIdeal.S100000x96.Idx) : Cert.Spec.bias x b i = x i + b (ix1 (i 1)) := by
  unfold Cert.Spec.bias
  rw [addf_apply, rows_apply]

/-- What the body stores, read at an index of the block: the block's entry plus the bias's entry of that column. -/
theorem pay_apply (x0 : Vec Ideal S5000x96 .f32) (x1 : Vec Ideal S96 .f32) (j : S5000x96.Idx) :
    k3_pay1 (F := Ideal) x0 x1 j = x0 j + x1 (ix1 (j 1)) := by
  obtain ⟨p, q, rfl⟩ : ∃ (p : Fin 5000) (q : Fin 96), j = ix2 p q := ⟨j 0, j 1, eq_ix2 j⟩
  unfold k3_pay1
  refine (addf_apply _ _ _).trans ?_
  refine congrArg₂ (· + ·) ?_ ?_
  · exact congrFun (shapeCast_self x0 _) _
  · refine (broadcastTo_1b_ab_apply _ _ p q).trans ?_
    exact shapeCast_a_1a_apply x1 _ (0 : Fin 1) q

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: point `t` reads and writes the `t`-th block of rows, all columns, and the whole bias row. -/
theorem idx_facts : ∀ t : Fin cfg3.N, win3_2.index t (0 : Fin 2) = t.val ∧ win3_2.index t (1 : Fin 2) = 0
    ∧ win3_0.index t (0 : Fin 2) = t.val ∧ win3_0.index t (1 : Fin 2) = 0 ∧ win3_1.index t (0 : Fin 1) = 0 :=
  (by decide +kernel : ∀ t : Fin grid3.N, _)

/-- What point `t` writes back is block `t` of the whole-array sum. -/
theorem flushed_eq [Cert.ReferenceIdeal.Facts] (c : Dev nD) (t : Fin cfg3.N) :
    (dat3 V c).flushed 2 t = ((cfg3.win 2).blk t).view.read (Elt Ideal) (Cert.Spec.bias (V c main_v60) (V c main_arg5)) := by
  show (cfg3.win 2).cut (grid3.coords t) ((dat3 V c).after 2 t) = _
  rw [after3_2]
  unfold out3_2
  rw [View.canon_unit_zero hz2]
  simp only [View.ld_unit_zero (S := S5000x96) hz2, View.ld_unit_zero (S := S96) hz1]
  obtain ⟨e20, e21, e00, e01, e10⟩ := idx_facts t
  funext j
  refine (pay_apply _ _ j).trans ?_
  refine Eq.trans ?_ (bias_apply _ _ _).symm
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 96 + 1 * (j 1).val = win3_2.index t (1 : Fin 2) * 96 + 1 * (j 1).val; omega
  have h1 : ((cfg3.win 1).blk t).view.emb (ix1 (j 1)) = ix1 ((((cfg3.win 2).blk t).view.emb j) 1) := by
    funext a; apply Fin.ext
    match a with
    | ⟨0, _⟩ => show win3_1.index t (0 : Fin 1) * 96 + 1 * (j 1).val = win3_2.index t (1 : Fin 2) * 96 + 1 * (j 1).val; omega
  exact congrArg₂ (· + ·) (congrArg (V c main_v60) h0) (congrArg (V c main_arg5) h1)

/-- An index of the array is in point `t`'s block iff each coordinate is in the block's range on its axis. -/
theorem mem_blk (t : Fin cfg3.N) (i : S100000x96.Idx) :
    i ∈ ((cfg3.win 2).blk t).view.set ↔ ∀ a : Fin 2, win3_2.index t a * S5000x96.size a ≤ (i a).val ∧ (i a).val < win3_2.index t a * S5000x96.size a + S5000x96.size a := by
  show i ∈ ((View.whole main_v61).slice (win3_2.rect t)).set ↔ _
  rw [View.set_slice_whole, Rect.mem_set_unit]
  exact Iff.rfl

/-- Every row is in some point's block: row r in block r / 5000. -/
theorem cover (i : S100000x96.Idx) : ∃ t : Fin cfg3.N, (cfg3.win 2).flush t = true ∧ i ∈ ((cfg3.win 2).blk t).view.set := by
  have hi0 : (i 0).val < 100000 := (i 0).isLt
  have hi1 : (i 1).val < 96 := (i 1).isLt
  have hN : cfg3.N = 20 := N_3
  let t : Fin cfg3.N := ⟨(i 0).val / 5000, by rw [hN]; omega⟩
  obtain ⟨e20, e21, -, -, -⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 96 ≤ (i 1).val ∧ (i 1).val < win3_2.index t (1 : Fin 2) * 96 + 96; omega

/-- The array the launch leaves: the whole-array sum of the two arrays it finds. -/
theorem final [Cert.ReferenceIdeal.Facts] (c : Dev nD) :
    (dat3 V c).arrAt 2 cfg3.N = Cert.Spec.bias (V c main_v60) (V c main_arg5) :=
  (dat3 V c).arrAt_eq_of_cover 2 _ (fun t _ => flushed_eq V c t) cover

end Cert.KernelIdeal.BiasRegion

end
-- ==== Proof.RegionNorm.lean ====
/-
  THE STEP BETWEEN THE LAYERS, as a launch: twenty blocks of 5000 rows.

  Point `t` of the grid reads rows 5000·t … 5000·t + 4999 of the aggregated features and five whole rows of 96 numbers
  (bias, gamma, beta, mean, variance), and writes back, at (r, q): with y = x(r, q) + bias(q), and y scaled by 0.05 where it
  is negative, ((y − mean(q)) · 1/sqrt(variance(q) + 1e-5)) · gamma(q) + beta(q). The host operations `Spec.bn` state the
  same number at every (r, q): both are the one scalar function `step` of the six numbers. The twenty blocks tile the
  rows, so the array the launch leaves is `Spec.bn` of the six arrays it finds.
-/
import proofs.«128679_j89386859365068_1_alg».proof.Proof.Gen.KernelIdeal.Frame
import proofs.«128679_j89386859365068_1_alg».proof.Proof.Spec
import proofs.«128679_j89386859365068_1_alg».proof.Proof.RegionBias
import Idealize.ShloMosaic.Lib.Pipeline.Value
import Idealize.ShloMosaic.Lib.ValueIdx
import Idealize.ShloMosaic.Lib.ValueLayout

set_option maxRecDepth 16384

noncomputable section

namespace Cert.KernelIdeal.NormRegion

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.BiasRegion (rows_apply bias_apply hz1 hz2)

/-- The step on one entry: the six numbers are the feature, the bias, gamma, beta, the mean and the variance of its column. -/
def step (x b g be mn vr : Ideal .f32) : Ideal .f32 :=
  FloatOps.addf (FloatOps.mulf (FloatOps.mulf (FloatOps.subf
    (Scalar.select (FloatOps.cmpf .oge (FloatOps.addf x b) (Scalar.ofBits .f32 0x00000000#32)) (FloatOps.addf x b)
      (FloatOps.mulf (Scalar.ofBits .f32 0x3D4CCCCD#32) (FloatOps.addf x b))) mn)
    (FloatOps.rsqrt (FloatOps.addf vr (Scalar.ofBits .f32 0x3727C5AC#32)))) g) be

/-- The step of equal numbers is equal. -/
theorem step_congr {x x' b b' g g' be be' mn mn' vr vr' : Ideal .f32} (hx : x = x') (hb : b = b') (hg : g = g') (hbe : be = be')
    (hmn : mn = mn') (hvr : vr = vr') : step x b g be mn vr = step x' b' g' be' mn' vr' := by
  subst hx hb hg hbe hmn hvr; rfl

/-- A row of 96 numbers cast to one row and repeated over the block's 5000 rows is, at (p, q), the row's entry q. -/
theorem row_bcast (v : Vec Ideal S96 .f32) (h1 : S96.ShapeCasts S1x96) (h2 : S1x96.Broadcasts S5000x96) :
    broadcastTo S5000x96 (shapeCast S1x96 v h1 : FVec Ideal S1x96 .f32) h2 = fun i => v (ix1 (i 1)) := by
  funext i
  obtain ⟨p, q, rfl⟩ : ∃ (p : Fin 5000) (q : Fin 96), i = ix2 p q := ⟨i 0, i 1, eq_ix2 i⟩
  exact (broadcastTo_1b_ab_apply _ _ p q).trans (shapeCast_a_1a_apply v _ (0 : Fin 1) q)

/-- What the body stores, read at an index of the block: the step on that entry and its column's five numbers. -/
theorem pay_apply (x0 : Vec Ideal S5000x96 .f32) (b vr mn g be : Vec Ideal S96 .f32) (j : S5000x96.Idx) :
    k1_pay1 (F := Ideal) x0 b vr mn g be j = step (x0 j) (b (ix1 (j 1))) (g (ix1 (j 1))) (be (ix1 (j 1))) (mn (ix1 (j 1))) (vr (ix1 (j 1))) := by
  unfold k1_pay1
  simp only [row_bcast, shapeCast_self]
  rfl

/-- A row repeated for every node, as a function of the index. -/
theorem rows_eq [Cert.ReferenceIdeal.Facts] (v : FVec Ideal Cert.ReferenceIdeal.S96 .f32) :
    Cert.Spec.rows v = fun i => v (ix1 (i 1)) := funext fun i => rows_apply v i

/-- The host operations' step, read at an index: the same scalar function of the same six numbers. -/
theorem bn_apply [Cert.ReferenceIdeal.Facts] (x : FVec Ideal Cert.ReferenceIdeal.S100000x96 .f32) (b g be mn vr : FVec Ideal Cert.ReferenceIdeal.S96 .f32)
    (i : Cert.ReferenceIdeal.S100000x96.Idx) :
    Cert.Spec.bn x b g be mn vr i = step (x i) (b (ix1 (i 1))) (g (ix1 (i 1))) (be (ix1 (i 1))) (mn (ix1 (i 1))) (vr (ix1 (i 1))) := by
  unfold Cert.Spec.bn Cert.Spec.leaky Cert.Spec.bias Cert.Spec.invStd
  simp only [rows_eq]
  rfl

/-! ## From the blocks to the array -/

variable (V : (c : Dev nD) → (b : Ref sig .tc) → Buf (Elt Ideal) ((c : Thread nD τ).loc b))

/-- The index maps over the grid: point `t` reads and writes the `t`-th block of rows, all columns, and each row of 96 whole. -/
theorem idx_facts : ∀ t : Fin cfg1.N, win1_6.index t (0 : Fin 2) = t.val ∧ win1_6.index t (1 : Fin 2) = 0
    ∧ win1_0.index t (0 : Fin 2) = t.val ∧ win1_0.index t (1 : Fin 2) = 0 ∧ win1_1.index t (0 : Fin 1) = 0
    ∧ win1_2.index t (0 : Fin 1) = 0 ∧ win1_3.index t (0 : Fin 1) = 0 ∧ win1_4.index t (0 : Fin 1) = 0 ∧ win1_5.index t (0 : Fin 1) = 0 :=
  (by decide +kernel : ∀ t : Fin grid1.N, _)

/-- What point `t` writes back is block `t` of the host operations' step on the whole arrays. -/
theorem flushed_eq [Cert.ReferenceIdeal.Facts] (c : Dev nD) (t : Fin cfg1.N) :
    (dat1 V c).flushed 6 t = ((cfg1.win 6).blk t).view.read (Elt Ideal)
      (Cert.Spec.bn (V c main_v45) (V c main_arg3) (V c main_arg6) (V c main_arg7) (V c main_arg8) (V c main_arg9)) := by
  show (cfg1.win 6).cut (grid1.coords t) ((dat1 V c).after 6 t) = _
  rw [after1_6]
  unfold out1_6
  rw [View.canon_unit_zero hz2]
  simp only [View.ld_unit_zero (S := S5000x96) hz2, View.ld_unit_zero (S := S96) hz1]
  obtain ⟨e60, e61, e00, e01, e1, e2, e3, e4, e5⟩ := idx_facts t
  funext j
  refine (pay_apply _ _ _ _ _ _ j).trans ?_
  refine Eq.trans ?_ (bn_apply _ _ _ _ _ _ _).symm
  have h0 : ((cfg1.win 0).blk t).view.emb j = ((cfg1.win 6).blk t).view.emb j := by
    funext a; apply Fin.ext
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 96 + 1 * (j 1).val = win1_6.index t (1 : Fin 2) * 96 + 1 * (j 1).val; omega
  have h1 : ((cfg1.win 1).blk t).view.emb (ix1 (j 1)) = ix1 ((((cfg1.win 6).blk t).view.emb j) 1) := by
    funext a; apply Fin.ext
    match a with
    | ⟨0, _⟩ => show win1_1.index t (0 : Fin 1) * 96 + 1 * (j 1).val = win1_6.index t (1 : Fin 2) * 96 + 1 * (j 1).val; omega
  have h2 : ((cfg1.win 2).blk t).view.emb (ix1 (j 1)) = ix1 ((((cfg1.win 6).blk t).view.emb j) 1) := by
    funext a; apply Fin.ext
    match a with
    | ⟨0, _⟩ => show win1_2.index t (0 : Fin 1) * 96 + 1 * (j 1).val = win1_6.index t (1 : Fin 2) * 96 + 1 * (j 1).val; omega
  have h3 : ((cfg1.win 3).blk t).view.emb (ix1 (j 1)) = ix1 ((((cfg1.win 6).blk t).view.emb j) 1) := by
    funext a; apply Fin.ext
    match a with
    | ⟨0, _⟩ => show win1_3.index t (0 : Fin 1) * 96 + 1 * (j 1).val = win1_6.index t (1 : Fin 2) * 96 + 1 * (j 1).val; omega
  have h4 : ((cfg1.win 4).blk t).view.emb (ix1 (j 1)) = ix1 ((((cfg1.win 6).blk t).view.emb j) 1) := by
    funext a; apply Fin.ext
    match a with
    | ⟨0, _⟩ => show win1_4.index t (0 : Fin 1) * 96 + 1 * (j 1).val = win1_6.index t (1 : Fin 2) * 96 + 1 * (j 1).val; omega
  have h5 : ((cfg1.win 5).blk t).view.emb (ix1 (j 1)) = ix1 ((((cfg1.win 6).blk t).view.emb j) 1) := by
    funext a; apply Fin.ext
    match a with
    | ⟨0, _⟩ => show win1_5.index t (0 : Fin 1) * 96 + 1 * (j 1).val = win1_6.index t (1 : Fin 2) * 96 + 1 * (j 1).val; omega
  exact step_congr (congrArg (V c main_v45) h0) (congrArg (V c main_arg3) h1) (congrArg (V c main_arg6) h2)
    (congrArg (V c main_arg7) h3) (congrArg (V c main_arg8) h4) (congrArg (V c main_arg9) h5)

/-- An index of the array is in point `t`'s block iff each coordinate is in the block's range on its axis. -/
theorem mem_blk (t : Fin cfg1.N) (i : S100000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v46).slice (win1_6.rect t)).set ↔ _
  rw [View.set_slice_whole, Rect.mem_set_unit]
  exact Iff.rfl

/-- Every row is in some point's block: row r in block r / 5000. -/
theorem cover (i : S100000x96.Idx) : ∃ t : Fin cfg1.N, (cfg1.win 6).flush t = true ∧ i ∈ ((cfg1.win 6).blk t).view.set := by
  have hi0 : (i 0).val < 100000 := (i 0).isLt
  have hi1 : (i 1).val < 96 := (i 1).isLt
  have hN : cfg1.N = 20 := N_1
  let t : Fin cfg1.N := ⟨(i 0).val / 5000, by rw [hN]; omega⟩
  obtain ⟨e60, e61, -, -, -, -, -, -, -⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 96 ≤ (i 1).val ∧ (i 1).val < win1_6.index t (1 : Fin 2) * 96 + 96; omega

/-- The array the launch leaves: the host operations' step on the six arrays it finds. -/
theorem final [Cert.ReferenceIdeal.Facts] (c : Dev nD) :
    (dat1 V c).arrAt 6 cfg1.N = Cert.Spec.bn (V c main_v45) (V c main_arg3) (V c main_arg6) (V c main_arg7) (V c main_arg8) (V c main_arg9) :=
  (dat1 V c).arrAt_eq_of_cover 6 _ (fun t _ => flushed_eq V c t) cover

end Cert.KernelIdeal.NormRegion

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.RegionProduct.lean ====
/-
  THE TWO PRODUCTS WITH A WEIGHT MATRIX, as launches: twenty blocks of 5000 rows each.

  Point `t` of the grid reads rows 5000·t … 5000·t + 4999 of the features and the whole 96 × 96 weight matrix, and writes
  back the block's product with the matrix: at (p, q) the sum over k < 96 of block(p, k) · weight(k, q) — the rounding of
  both operands to a shorter float format changes nothing over the extended reals, and the sum starts from zero. The host's
  product of the whole feature array with the matrix is, at (r, q), the sum over k < 96 of features(r, k) · weight(k, q):
  the same sum, since row p of block t is row 5000·t + p. The twenty blocks tile the rows, so each launch leaves the
  whole-array product `Spec.mm` of the two arrays it finds.
-/
import proofs.«128679_j89386859365068_1_alg».proof.Proof.Gen.KernelIdeal.Frame
import proofs.«128679_j89386859365068_1_alg».proof.Proof.Spec
import proofs.«128679_j89386859365068_1_alg».proof.Proof.LibPlainDot
import proofs.«128679_j89386859365068_1_alg».proof.Proof.RegionBias
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProductRegion

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.KernelIdeal.BiasRegion (hz2)

/-- The host's product of the whole arrays, read at an index: a sum over the 96 columns of the features. -/
theorem mm_apply [Cert.ReferenceIdeal.Facts] (x : FVec Ideal Cert.ReferenceIdeal.S100000x96 .f32) (w : FVec Ideal Cert.ReferenceIdeal.S96x96 .f32)
    (i : Cert.ReferenceIdeal.S100000x96.Idx) :
    Cert.Spec.mm x w i = ∑ k : Fin 96, x (ix2 (i 0) k) * w (ix2 k (i 1)) := by
  obtain ⟨r, q, rfl⟩ : ∃ (r : Fin 100000) (q : Fin 96), i = ix2 r q := ⟨i 0, i 1, eq_ix2 i⟩
  unfold Cert.Spec.mm
  refine (Ideal.dotGeneral_apply _ _ _ _ _ _).trans ?_
  exact Cert.Lib.sum_contr_plain Cert.ReferenceIdeal.dot_S100000x96_S96x96_S100000x96_1_0_0_1_n_n rfl rfl rfl rfl rfl rfl
    (fun a b => x a * w b) r q

/-- The first launch's body, read at an index of the block: the block's row times the matrix's column. -/
theorem pay0_apply (x0 : Vec Ideal S5000x96 .f32) (x1 : Vec Ideal S96x96 .f32) (j : S5000x96.Idx) :
    k0_pay1 (F := Ideal) x0 x1 j = ∑ k : Fin 96, x0 (ix2 (j 0) k) * x1 (ix2 k (j 1)) := by
  obtain ⟨p, q, rfl⟩ : ∃ (p : Fin 5000) (q : Fin 96), j = ix2 p q := ⟨j 0, j 1, eq_ix2 j⟩
  unfold k0_pay1
  refine Eq.trans (Ideal.matmul_constant_zero_apply dot_S5000x96_S96x96_S5000x96_1_0_0_1_n_n none _ _ (ix2 p q)) ?_
  exact Cert.Lib.sum_contr_plain dot_S5000x96_S96x96_S5000x96_1_0_0_1_n_n rfl rfl rfl rfl rfl rfl
    (fun a b => x0 a * x1 b) p q

/-- The second launch's body, read at an index of the block: the same sum (the block is first cast to its own shape). -/
theorem pay2_apply (x0 : Vec Ideal S5000x96 .f32) (x1 : Vec Ideal S96x96 .f32) (j : S5000x96.Idx) :
    k2_pay1 (F := Ideal) x0 x1 j = ∑ k : Fin 96, x0 (ix2 (j 0) k) * x1 (ix2 k (j 1)) := by
  obtain ⟨p, q, rfl⟩ : ∃ (p : Fin 5000) (q : Fin 96), j = ix2 p q := ⟨j 0, j 1, eq_ix2 j⟩
  unfold k2_pay1
  simp only [shapeCast_self]
  refine Eq.trans (Ideal.matmul_constant_zero_apply dot_S5000x96_S96x96_S5000x96_1_0_0_1_n_n none _ _ (ix2 p q)) ?_
  exact Cert.Lib.sum_contr_plain dot_S5000x96_S96x96_S5000x96_1_0_0_1_n_n rfl rfl rfl rfl rfl rfl
    (fun a b => x0 a * x1 b) p q

variable (V : (c : Dev nD) → (b : Ref sig .tc) → Buf (Elt Ideal) ((c : Thread nD τ).loc b))

/-! ## The first product: from the blocks to the array -/

/-- The index maps over the grid: point `t` reads and writes the `t`-th block of rows, all columns, and the whole matrix. -/
theorem idx_facts0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point `t` writes back is block `t` of the whole-array product. -/
theorem flushed0_eq [Cert.ReferenceIdeal.Facts] (c : Dev nD) (t : Fin cfg0.N) :
    (dat0 V c).flushed 2 t = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero hz2]
  simp only [View.ld_unit_zero (S := S5000x96) hz2, View.ld_unit_zero (S := S96x96) hz2]
  obtain ⟨e20, e21, e00, e01, e10, e11⟩ := idx_facts0 t
  funext j
  refine (pay0_apply _ _ j).trans ?_
  refine Eq.trans ?_ (mm_apply _ _ _).symm
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 96 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 96 + 1 * k.val = k.val; omega
    | ⟨1, _⟩ => show win0_1.index t (1 : Fin 2) * 96 + 1 * (j 1).val = win0_2.index t (1 : Fin 2) * 96 + 1 * (j 1).val; omega
  exact congrArg₂ (· * ·) (congrArg (V c main_arg0) h0) (congrArg (V c main_arg2) h1)

/-- An index of the array is in point `t`'s block iff each coordinate is in the block's range on its axis. -/
theorem mem_blk0 (t : Fin cfg0.N) (i : S100000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v32).slice (win0_2.rect t)).set ↔ _
  rw [View.set_slice_whole, Rect.mem_set_unit]
  exact Iff.rfl

/-- Every row is in some point's block: row r in block r / 5000. -/
theorem cover0 (i : S100000x96.Idx) : ∃ t : Fin cfg0.N, (cfg0.win 2).flush t = true ∧ i ∈ ((cfg0.win 2).blk t).view.set := by
  have hi0 : (i 0).val < 100000 := (i 0).isLt
  have hi1 : (i 1).val < 96 := (i 1).isLt
  have hN : cfg0.N = 20 := N_0
  let t : Fin cfg0.N := ⟨(i 0).val / 5000, by rw [hN]; omega⟩
  obtain ⟨e20, e21, -, -, -, -⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- The array the first product's launch leaves: the whole-array product of the two arrays it finds. -/
theorem final0 [Cert.ReferenceIdeal.Facts] (c : Dev nD) :
    (dat0 V c).arrAt 2 cfg0.N = Cert.Spec.mm (V c main_arg0) (V c main_arg2) :=
  (dat0 V c).arrAt_eq_of_cover 2 _ (fun t _ => flushed0_eq V c t) cover0

/-! ## The second product: from the blocks to the array -/

/-- The index maps over the grid: point `t` reads and writes the `t`-th block of rows, all columns, and the whole matrix. -/
theorem idx_facts2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point `t` writes back is block `t` of the whole-array product. -/
theorem flushed2_eq [Cert.ReferenceIdeal.Facts] (c : Dev nD) (t : Fin cfg2.N) :
    (dat2 V c).flushed 2 t = ((cfg2.win 2).blk t).view.read (Elt Ideal) (Cert.Spec.mm (V c main_v46) (V c main_arg4)) := by
  show (cfg2.win 2).cut (grid2.coords t) ((dat2 V c).after 2 t) = _
  rw [after2_2]
  unfold out2_2
  rw [View.canon_unit_zero hz2]
  simp only [View.ld_unit_zero (S := S5000x96) hz2, View.ld_unit_zero (S := S96x96) hz2]
  obtain ⟨e20, e21, e00, e01, e10, e11⟩ := idx_facts2 t
  funext j
  refine (pay2_apply _ _ j).trans ?_
  refine Eq.trans ?_ (mm_apply _ _ _).symm
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 96 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 96 + 1 * k.val = k.val; omega
    | ⟨1, _⟩ => show win2_1.index t (1 : Fin 2) * 96 + 1 * (j 1).val = win2_2.index t (1 : Fin 2) * 96 + 1 * (j 1).val; omega
  exact congrArg₂ (· * ·) (congrArg (V c main_v46) h0) (congrArg (V c main_arg4) h1)

/-- An index of the array is in point `t`'s block iff each coordinate is in the block's range on its axis. -/
theorem mem_blk2 (t : Fin cfg2.N) (i : S100000x96.Idx) :
    i ∈ ((cfg2.win 2).blk t).view.set ↔ ∀ a : Fin 2, win2_2.index t a * S5000x96.size a ≤ (i a).val ∧ (i a).val < win2_2.index t a * S5000x96.size a + S5000x96.size a := by
  show i ∈ ((View.whole main_v47).slice (win2_2.rect t)).set ↔ _
  rw [View.set_slice_whole, Rect.mem_set_unit]
  exact Iff.rfl

/-- Every row is in some point's block: row r in block r / 5000. -/
theorem cover2 (i : S100000x96.Idx) : ∃ t : Fin cfg2.N, (cfg2.win 2).flush t = true ∧ i ∈ ((cfg2.win 2).blk t).view.set := by
  have hi0 : (i 0).val < 100000 := (i 0).isLt
  have hi1 : (i 1).val < 96 := (i 1).isLt
  have hN : cfg2.N = 20 := N_2
  let t : Fin cfg2.N := ⟨(i 0).val / 5000, by rw [hN]; omega⟩
  obtain ⟨e20, e21, -, -, -, -⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 96 ≤ (i 1).val ∧ (i 1).val < win2_2.index t (1 : Fin 2) * 96 + 96; omega

/-- The array the second product's launch leaves: the whole-array product of the two arrays it finds. -/
theorem final2 [Cert.ReferenceIdeal.Facts] (c : Dev nD) :
    (dat2 V c).arrAt 2 cfg2.N = Cert.Spec.mm (V c main_v46) (V c main_arg4) :=
  (dat2 V c).arrAt_eq_of_cover 2 _ (fun t _ => flushed2_eq V c t) cover2

end Cert.KernelIdeal.ProductRegion

end
-- ==== Proof.KernelValue.lean ====
/-
  THE KERNEL PROGRAM'S RESULT, read back through the program.

  The run ends with the result buffer at the last boundary's contents. Walking back: the last launch leaves there the bias
  added to what the stretch before it left — the second aggregation, of what the third launch left — the second product,
  of what the second launch left — the step between the layers, of the first aggregation, of what the first launch
  left — the first product of the features with the first weight matrix. The lists and the weights come from the
  operations before the first launch and pass through every later segment untouched, as do the arguments. Put together
  the result is `Spec.net` of the ten arguments as launched.
-/
import proofs.«128679_j89386859365068_1_alg».proof.Proof.KernelHost
import proofs.«128679_j89386859365068_1_alg».proof.Proof.RegionBias
import proofs.«128679_j89386859365068_1_alg».proof.Proof.RegionNorm
import proofs.«128679_j89386859365068_1_alg».proof.Proof.RegionProduct

set_option maxRecDepth 16384

noncomputable section

namespace Cert.KernelIdeal.Result

open Cert.KernelIdeal Cert.KernelIdeal.Gen Cert.KernelIdeal.HostStretch
open Idealize.ShloMosaic Idealize.ShloMosaic.TcCoe Idealize.SL.Sem Idealize.ShloMosaic.StableHlo

variable [Cert.ReferenceIdeal.Facts]
variable (m : (ℓ : Loc nD τ sig) → Buf (Elt Ideal) ℓ) (ρ : Dev nD → PrngReg) (c : Dev nD)

/-- An aggregation of equal arrays is equal. -/
theorem agg_congr {h h' : FVec Ideal Cert.ReferenceIdeal.S100000x96 .f32} {s s' d d' : IVec Cert.ReferenceIdeal.S900000 32}
    {n n' : FVec Ideal Cert.ReferenceIdeal.S900000 .f32} (e1 : h = h') (e2 : s = s') (e3 : d = d') (e4 : n = n') :
    Cert.Spec.agg h s d n = Cert.Spec.agg h' s' d' n' := by subst e1 e2 e3 e4; rfl

/-- The step between the layers of equal arrays is equal. -/
theorem bn_congr {x x' : FVec Ideal Cert.ReferenceIdeal.S100000x96 .f32} {b b' g g' be be' mn mn' vr vr' : FVec Ideal Cert.ReferenceIdeal.S96 .f32}
    (e1 : x = x') (e2 : b = b') (e3 : g = g') (e4 : be = be') (e5 : mn = mn') (e6 : vr = vr') :
    Cert.Spec.bn x b g be mn vr = Cert.Spec.bn x' b' g' be' mn' vr' := by subst e1 e2 e3 e4 e5 e6; rfl

/-! ## Before the first launch: three stretches -/

/-- A node's factor from equal arrays is equal. -/
theorem dinv_congr {p p' : IVec Cert.ReferenceIdeal.S100000 1} {r r' : FVec Ideal Cert.ReferenceIdeal.S100000 .f32} {z z' : FVec Ideal Cert.ReferenceIdeal.S_ .f32}
    (e1 : p = p') (e2 : r = r') (e3 : z = z') : Cert.Spec.dinv p r z = Cert.Spec.dinv p' r' z' := by subst e1 e2 e3; rfl

/-- The weights from equal arrays are equal. -/
theorem norm_congr {v v' : FVec Ideal Cert.ReferenceIdeal.S100000 .f32} {s s' d d' : IVec Cert.ReferenceIdeal.S900000 32}
    (e1 : v = v') (e2 : s = s') (e3 : d = d') : Cert.Spec.norm v s d = Cert.Spec.norm v' s' d' := by subst e1 e2 e3; rfl

theorem e1_src : W1 m ρ c (Proc.devRef .tc main_v3) = (Cert.Spec.src (m ((c : Thread nD τ).loc main_arg1))) := p_src (W0 m ρ c)
theorem e1_dst : W1 m ρ c (Proc.devRef .tc main_v6) = (Cert.Spec.dst (m ((c : Thread nD τ).loc main_arg1))) := p_dst (W0 m ρ c)
theorem e1_pos : W1 m ρ c (Proc.devRef .tc main_v12) = Cert.Spec.degPos (Cert.Spec.dst (m ((c : Thread nD τ).loc main_arg1))) := p_pos (W0 m ρ c)
theorem e1_rsq : W1 m ρ c (Proc.devRef .tc main_v15) = Cert.Spec.degRsqrt (Cert.Spec.dst (m ((c : Thread nD τ).loc main_arg1))) := p_rsq (W0 m ρ c)
theorem e1_cst : W1 m ρ c (Proc.devRef .tc main_cst_3) = constant (F := Ideal) Cert.ReferenceIdeal.S_ .f32 0x00000000#32 := p_cst (W0 m ρ c)
theorem e1_arg0 : W1 m ρ c (Proc.devRef .tc main_arg0) = (m ((c : Thread nD τ).loc main_arg0)) := p_arg0 (W0 m ρ c)
theorem e1_arg2 : W1 m ρ c (Proc.devRef .tc main_arg2) = (m ((c : Thread nD τ).loc main_arg2)) := p_arg2 (W0 m ρ c)
theorem e1_arg3 : W1 m ρ c (Proc.devRef .tc main_arg3) = (m ((c : Thread nD τ).loc main_arg3)) := p_arg3 (W0 m ρ c)
theorem e1_arg4 : W1 m ρ c (Proc.devRef .tc main_arg4) = (m ((c : Thread nD τ).loc main_arg4)) := p_arg4 (W0 m ρ c)
theorem e1_arg5 : W1 m ρ c (Proc.devRef .tc main_arg5) = (m ((c : Thread nD τ).loc main_arg5)) := p_arg5 (W0 m ρ c)
theorem e1_arg6 : W1 m ρ c (Proc.devRef .tc main_arg6) = (m ((c : Thread nD τ).loc main_arg6)) := p_arg6 (W0 m ρ c)
theorem e1_arg7 : W1 m ρ c (Proc.devRef .tc main_arg7) = (m ((c : Thread nD τ).loc main_arg7)) := p_arg7 (W0 m ρ c)
theorem e1_arg8 : W1 m ρ c (Proc.devRef .tc main_arg8) = (m ((c : Thread nD τ).loc main_arg8)) := p_arg8 (W0 m ρ c)
theorem e1_arg9 : W1 m ρ c (Proc.devRef .tc main_arg9) = (m ((c : Thread nD τ).loc main_arg9)) := p_arg9 (W0 m ρ c)

theorem e2_dinv : W2 m ρ c (Proc.devRef .tc main_v16) = (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) :=
  (q_dinv (W1 m ρ c)).trans (dinv_congr (e1_pos m ρ c) (e1_rsq m ρ c) (e1_cst m ρ c))
theorem e2_src : W2 m ρ c (Proc.devRef .tc main_v3) = (Cert.Spec.src (m ((c : Thread nD τ).loc main_arg1))) := (q_v3 (W1 m ρ c)).trans (e1_src m ρ c)
theorem e2_dst : W2 m ρ c (Proc.devRef .tc main_v6) = (Cert.Spec.dst (m ((c : Thread nD τ).loc main_arg1))) := (q_v6 (W1 m ρ c)).trans (e1_dst m ρ c)
theorem e2_arg0 : W2 m ρ c (Proc.devRef .tc main_arg0) = (m ((c : Thread nD τ).loc main_arg0)) := (q_arg0 (W1 m ρ c)).trans (e1_arg0 m ρ c)
theorem e2_arg2 : W2 m ρ c (Proc.devRef .tc main_arg2) = (m ((c : Thread nD τ).loc main_arg2)) := (q_arg2 (W1 m ρ c)).trans (e1_arg2 m ρ c)
theorem e2_arg3 : W2 m ρ c (Proc.devRef .tc main_arg3) = (m ((c : Thread nD τ).loc main_arg3)) := (q_arg3 (W1 m ρ c)).trans (e1_arg3 m ρ c)
theorem e2_arg4 : W2 m ρ c (Proc.devRef .tc main_arg4) = (m ((c : Thread nD τ).loc main_arg4)) := (q_arg4 (W1 m ρ c)).trans (e1_arg4 m ρ c)
theorem e2_arg5 : W2 m ρ c (Proc.devRef .tc main_arg5) = (m ((c : Thread nD τ).loc main_arg5)) := (q_arg5 (W1 m ρ c)).trans (e1_arg5 m ρ c)
theorem e2_arg6 : W2 m ρ c (Proc.devRef .tc main_arg6) = (m ((c : Thread nD τ).loc main_arg6)) := (q_arg6 (W1 m ρ c)).trans (e1_arg6 m ρ c)
theorem e2_arg7 : W2 m ρ c (Proc.devRef .tc main_arg7) = (m ((c : Thread nD τ).loc main_arg7)) := (q_arg7 (W1 m ρ c)).trans (e1_arg7 m ρ c)
theorem e2_arg8 : W2 m ρ c (Proc.devRef .tc main_arg8) = (m ((c : Thread nD τ).loc main_arg8)) := (q_arg8 (W1 m ρ c)).trans (e1_arg8 m ρ c)
theorem e2_arg9 : W2 m ρ c (Proc.devRef .tc main_arg9) = (m ((c : Thread nD τ).loc main_arg9)) := (q_arg9 (W1 m ρ c)).trans (e1_arg9 m ρ c)

/-! ## Entering the first launch -/

theorem e3_norm : W3 m ρ c (Proc.devRef .tc main_v31) = (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1)))) :=
  (r_norm (W2 m ρ c)).trans (norm_congr (e2_dinv m ρ c) (e2_src m ρ c) (e2_dst m ρ c))
theorem e3_src : W3 m ρ c (Proc.devRef .tc main_v3) = (Cert.Spec.src (m ((c : Thread nD τ).loc main_arg1))) := (r_v3 (W2 m ρ c)).trans (e2_src m ρ c)
theorem e3_dst : W3 m ρ c (Proc.devRef .tc main_v6) = (Cert.Spec.dst (m ((c : Thread nD τ).loc main_arg1))) := (r_v6 (W2 m ρ c)).trans (e2_dst m ρ c)
theorem e3_arg0 : W3 m ρ c (Proc.devRef .tc main_arg0) = (m ((c : Thread nD τ).loc main_arg0)) := (r_arg0 (W2 m ρ c)).trans (e2_arg0 m ρ c)
theorem e3_arg2 : W3 m ρ c (Proc.devRef .tc main_arg2) = (m ((c : Thread nD τ).loc main_arg2)) := (r_arg2 (W2 m ρ c)).trans (e2_arg2 m ρ c)
theorem e3_arg3 : W3 m ρ c (Proc.devRef .tc main_arg3) = (m ((c : Thread nD τ).loc main_arg3)) := (r_arg3 (W2 m ρ c)).trans (e2_arg3 m ρ c)
theorem e3_arg4 : W3 m ρ c (Proc.devRef .tc main_arg4) = (m ((c : Thread nD τ).loc main_arg4)) := (r_arg4 (W2 m ρ c)).trans (e2_arg4 m ρ c)
theorem e3_arg5 : W3 m ρ c (Proc.devRef .tc main_arg5) = (m ((c : Thread nD τ).loc main_arg5)) := (r_arg5 (W2 m ρ c)).trans (e2_arg5 m ρ c)
theorem e3_arg6 : W3 m ρ c (Proc.devRef .tc main_arg6) = (m ((c : Thread nD τ).loc main_arg6)) := (r_arg6 (W2 m ρ c)).trans (e2_arg6 m ρ c)
theorem e3_arg7 : W3 m ρ c (Proc.devRef .tc main_arg7) = (m ((c : Thread nD τ).loc main_arg7)) := (r_arg7 (W2 m ρ c)).trans (e2_arg7 m ρ c)
theorem e3_arg8 : W3 m ρ c (Proc.devRef .tc main_arg8) = (m ((c : Thread nD τ).loc main_arg8)) := (r_arg8 (W2 m ρ c)).trans (e2_arg8 m ρ c)
theorem e3_arg9 : W3 m ρ c (Proc.devRef .tc main_arg9) = (m ((c : Thread nD τ).loc main_arg9)) := (r_arg9 (W2 m ρ c)).trans (e2_arg9 m ρ c)

/-! ## After the first launch -/

theorem e4_h : W4 m ρ c (Proc.devRef .tc main_v32) = (Cert.Spec.mm (m ((c : Thread nD τ).loc main_arg0)) (m ((c : Thread nD τ).loc main_arg2))) :=
  (W4_arr m ρ c 2).trans ((ProductRegion.final0 (V3 m ρ) c).trans (congrArg₂ Cert.Spec.mm (e3_arg0 m ρ c) (e3_arg2 m ρ c)))
theorem e4_src : W4 m ρ c (Proc.devRef .tc main_v3) = (Cert.Spec.src (m ((c : Thread nD τ).loc main_arg1))) := (W4_of_ne m ρ c main_v3 (by decide)).trans (e3_src m ρ c)
theorem e4_dst : W4 m ρ c (Proc.devRef .tc main_v6) = (Cert.Spec.dst (m ((c : Thread nD τ).loc main_arg1))) := (W4_of_ne m ρ c main_v6 (by decide)).trans (e3_dst m ρ c)
theorem e4_norm : W4 m ρ c (Proc.devRef .tc main_v31) = (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1)))) := (W4_of_ne m ρ c main_v31 (by decide)).trans (e3_norm m ρ c)
theorem e4_arg3 : W4 m ρ c (Proc.devRef .tc main_arg3) = (m ((c : Thread nD τ).loc main_arg3)) := (W4_of_ne m ρ c main_arg3 (by decide)).trans (e3_arg3 m ρ c)
theorem e4_arg4 : W4 m ρ c (Proc.devRef .tc main_arg4) = (m ((c : Thread nD τ).loc main_arg4)) := (W4_of_ne m ρ c main_arg4 (by decide)).trans (e3_arg4 m ρ c)
theorem e4_arg5 : W4 m ρ c (Proc.devRef .tc main_arg5) = (m ((c : Thread nD τ).loc main_arg5)) := (W4_of_ne m ρ c main_arg5 (by decide)).trans (e3_arg5 m ρ c)
theorem e4_arg6 : W4 m ρ c (Proc.devRef .tc main_arg6) = (m ((c : Thread nD τ).loc main_arg6)) := (W4_of_ne m ρ c main_arg6 (by decide)).trans (e3_arg6 m ρ c)
theorem e4_arg7 : W4 m ρ c (Proc.devRef .tc main_arg7) = (m ((c : Thread nD τ).loc main_arg7)) := (W4_of_ne m ρ c main_arg7 (by decide)).trans (e3_arg7 m ρ c)
theorem e4_arg8 : W4 m ρ c (Proc.devRef .tc main_arg8) = (m ((c : Thread nD τ).loc main_arg8)) := (W4_of_ne m ρ c main_arg8 (by decide)).trans (e3_arg8 m ρ c)
theorem e4_arg9 : W4 m ρ c (Proc.devRef .tc main_arg9) = (m ((c : Thread nD τ).loc main_arg9)) := (W4_of_ne m ρ c main_arg9 (by decide)).trans (e3_arg9 m ρ c)

/-! ## Entering the second launch -/

theorem e5_g : W5 m ρ c (Proc.devRef .tc main_v45) = (Cert.Spec.agg (Cert.Spec.mm (m ((c : Thread nD τ).loc main_arg0)) (m ((c : Thread nD τ).loc main_arg2))) (Cert.Spec.src (m ((c : Thread nD τ).loc main_arg1))) (Cert.Spec.dst (m ((c : Thread nD τ).loc main_arg1))) (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1))))) :=
  (b_agg (W4 m ρ c)).trans (agg_congr (e4_h m ρ c) (e4_src m ρ c) (e4_dst m ρ c) (e4_norm m ρ c))
theorem e5_src : W5 m ρ c (Proc.devRef .tc main_v3) = (Cert.Spec.src (m ((c : Thread nD τ).loc main_arg1))) := (b_v3 (W4 m ρ c)).trans (e4_src m ρ c)
theorem e5_dst : W5 m ρ c (Proc.devRef .tc main_v6) = (Cert.Spec.dst (m ((c : Thread nD τ).loc main_arg1))) := (b_v6 (W4 m ρ c)).trans (e4_dst m ρ c)
theorem e5_norm : W5 m ρ c (Proc.devRef .tc main_v31) = (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1)))) := (b_v31 (W4 m ρ c)).trans (e4_norm m ρ c)
theorem e5_arg3 : W5 m ρ c (Proc.devRef .tc main_arg3) = (m ((c : Thread nD τ).loc main_arg3)) := (b_arg3 (W4 m ρ c)).trans (e4_arg3 m ρ c)
theorem e5_arg4 : W5 m ρ c (Proc.devRef .tc main_arg4) = (m ((c : Thread nD τ).loc main_arg4)) := (b_arg4 (W4 m ρ c)).trans (e4_arg4 m ρ c)
theorem e5_arg5 : W5 m ρ c (Proc.devRef .tc main_arg5) = (m ((c : Thread nD τ).loc main_arg5)) := (b_arg5 (W4 m ρ c)).trans (e4_arg5 m ρ c)
theorem e5_arg6 : W5 m ρ c (Proc.devRef .tc main_arg6) = (m ((c : Thread nD τ).loc main_arg6)) := (b_arg6 (W4 m ρ c)).trans (e4_arg6 m ρ c)
theorem e5_arg7 : W5 m ρ c (Proc.devRef .tc main_arg7) = (m ((c : Thread nD τ).loc main_arg7)) := (b_arg7 (W4 m ρ c)).trans (e4_arg7 m ρ c)
theorem e5_arg8 : W5 m ρ c (Proc.devRef .tc main_arg8) = (m ((c : Thread nD τ).loc main_arg8)) := (b_arg8 (W4 m ρ c)).trans (e4_arg8 m ρ c)
theorem e5_arg9 : W5 m ρ c (Proc.devRef .tc main_arg9) = (m ((c : Thread nD τ).loc main_arg9)) := (b_arg9 (W4 m ρ c)).trans (e4_arg9 m ρ c)

/-! ## After the second launch -/

theorem e6_x : W6 m ρ c (Proc.devRef .tc main_v46) = (Cert.Spec.bn (Cert.Spec.agg (Cert.Spec.mm (m ((c : Thread nD τ).loc main_arg0)) (m ((c : Thread nD τ).loc main_arg2))) (Cert.Spec.src (m ((c : Thread nD τ).loc main_arg1))) (Cert.Spec.dst (m ((c : Thread nD τ).loc main_arg1))) (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1))))) (m ((c : Thread nD τ).loc main_arg3)) (m ((c : Thread nD τ).loc main_arg6)) (m ((c : Thread nD τ).loc main_arg7)) (m ((c : Thread nD τ).loc main_arg8)) (m ((c : Thread nD τ).loc main_arg9))) :=
  (W6_arr m ρ c 6).trans ((NormRegion.final (V5 m ρ) c).trans
    (bn_congr (e5_g m ρ c) (e5_arg3 m ρ c) (e5_arg6 m ρ c) (e5_arg7 m ρ c) (e5_arg8 m ρ c) (e5_arg9 m ρ c)))
theorem e6_src : W6 m ρ c (Proc.devRef .tc main_v3) = (Cert.Spec.src (m ((c : Thread nD τ).loc main_arg1))) := (W6_of_ne m ρ c main_v3 (by decide)).trans (e5_src m ρ c)
theorem e6_dst : W6 m ρ c (Proc.devRef .tc main_v6) = (Cert.Spec.dst (m ((c : Thread nD τ).loc main_arg1))) := (W6_of_ne m ρ c main_v6 (by decide)).trans (e5_dst m ρ c)
theorem e6_norm : W6 m ρ c (Proc.devRef .tc main_v31) = (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1)))) := (W6_of_ne m ρ c main_v31 (by decide)).trans (e5_norm m ρ c)
theorem e6_arg4 : W6 m ρ c (Proc.devRef .tc main_arg4) = (m ((c : Thread nD τ).loc main_arg4)) := (W6_of_ne m ρ c main_arg4 (by decide)).trans (e5_arg4 m ρ c)
theorem e6_arg5 : W6 m ρ c (Proc.devRef .tc main_arg5) = (m ((c : Thread nD τ).loc main_arg5)) := (W6_of_ne m ρ c main_arg5 (by decide)).trans (e5_arg5 m ρ c)

/-! ## After the third launch -/

theorem e7_h : W7 m ρ c (Proc.devRef .tc main_v47) = (Cert.Spec.mm (Cert.Spec.bn (Cert.Spec.agg (Cert.Spec.mm (m ((c : Thread nD τ).loc main_arg0)) (m ((c : Thread nD τ).loc main_arg2))) (Cert.Spec.src (m ((c : Thread nD τ).loc main_arg1))) (Cert.Spec.dst (m ((c : Thread nD τ).loc main_arg1))) (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1))))) (m ((c : Thread nD τ).loc main_arg3)) (m ((c : Thread nD τ).loc main_arg6)) (m ((c : Thread nD τ).loc main_arg7)) (m ((c : Thread nD τ).loc main_arg8)) (m ((c : Thread nD τ).loc main_arg9))) (m ((c : Thread nD τ).loc main_arg4))) :=
  (W7_arr m ρ c 2).trans ((ProductRegion.final2 (V6 m ρ) c).trans (congrArg₂ Cert.Spec.mm (e6_x m ρ c) (e6_arg4 m ρ c)))
theorem e7_src : W7 m ρ c (Proc.devRef .tc main_v3) = (Cert.Spec.src (m ((c : Thread nD τ).loc main_arg1))) := (W7_of_ne m ρ c main_v3 (by decide)).trans (e6_src m ρ c)
theorem e7_dst : W7 m ρ c (Proc.devRef .tc main_v6) = (Cert.Spec.dst (m ((c : Thread nD τ).loc main_arg1))) := (W7_of_ne m ρ c main_v6 (by decide)).trans (e6_dst m ρ c)
theorem e7_norm : W7 m ρ c (Proc.devRef .tc main_v31) = (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1)))) := (W7_of_ne m ρ c main_v31 (by decide)).trans (e6_norm m ρ c)
theorem e7_arg5 : W7 m ρ c (Proc.devRef .tc main_arg5) = (m ((c : Thread nD τ).loc main_arg5)) := (W7_of_ne m ρ c main_arg5 (by decide)).trans (e6_arg5 m ρ c)

/-! ## Entering the last launch -/

theorem e8_g : W8 m ρ c (Proc.devRef .tc main_v60) = (Cert.Spec.agg (Cert.Spec.mm (Cert.Spec.bn (Cert.Spec.agg (Cert.Spec.mm (m ((c : Thread nD τ).loc main_arg0)) (m ((c : Thread nD τ).loc main_arg2))) (Cert.Spec.src (m ((c : Thread nD τ).loc main_arg1))) (Cert.Spec.dst (m ((c : Thread nD τ).loc main_arg1))) (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1))))) (m ((c : Thread nD τ).loc main_arg3)) (m ((c : Thread nD τ).loc main_arg6)) (m ((c : Thread nD τ).loc main_arg7)) (m ((c : Thread nD τ).loc main_arg8)) (m ((c : Thread nD τ).loc main_arg9))) (m ((c : Thread nD τ).loc main_arg4))) (Cert.Spec.src (m ((c : Thread nD τ).loc main_arg1))) (Cert.Spec.dst (m ((c : Thread nD τ).loc main_arg1))) (Cert.Spec.norm (Cert.Spec.dinv (Cert.Spec.degPos (Cert.Spec.dst (m ((c : Thread nD τ).loc main_arg1)))) (Cert.Spec.degRsqrt (Cert.Spec.dst (m ((c : Thread nD τ).loc main_arg1)))) (constant (F := Ideal) Cert.ReferenceIdeal.S_ .f32 0x00000000#32)) (Cert.Spec.src (m ((c : Thread nD τ).loc main_arg1))) (Cert.Spec.dst (m ((c : Thread nD τ).loc main_arg1))))) :=
  (c_agg (W7 m ρ c)).trans (agg_congr (e7_h m ρ c) (e7_src m ρ c) (e7_dst m ρ c) (e7_norm m ρ c))
theorem e8_arg5 : W8 m ρ c (Proc.devRef .tc main_arg5) = (m ((c : Thread nD τ).loc main_arg5)) := (c_arg5 (W7 m ρ c)).trans (e7_arg5 m ρ c)

/-! ## The result -/

/-- The last boundary's contents at the result buffer: the network of the ten arguments as launched. -/
theorem value : W9 m ρ c (Proc.devRef .tc main_v61)
    = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W9_arr m ρ c 2).trans ((BiasRegion.final (V8 m ρ) c).trans (congrArg₂ Cert.Spec.bias (e8_g m ρ c) (e8_arg5 m ρ c)))

end Cert.KernelIdeal.Result

end
-- ==== Proof.LibAfter.lean ====
/-
  A LINE OF HOST OPERATIONS, CUT IN TWO.

  The contents a device's buffers hold after a straight line of host operations is a fold of the operations' results
  over the contents the line starts from. The fold over a concatenation is the fold over the second part, started from
  the fold over the first; so a long line can be read a stretch at a time, each stretch from contents that are a
  variable: what a stretch leaves in a buffer is then a small term over the few buffers the stretch reads.
-/
import Idealize.ShloMosaic.Lib.StableHlo.Run

noncomputable section

namespace Cert.Lib

open Idealize.ShloMosaic Idealize.ShloMosaic.StableHlo

variable {τ : Topo} {sig : RefSig} {Val : EltTy → Type}

/-- The fold over two lines one after the other is the second's fold from the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `k` operations: the rest's fold, from the first `k`'s. -/
theorem after_take_drop (l : List (HloOp τ sig Val)) (k : Nat) (V : Valuation τ sig Val) :
    after l V = after (l.drop k) (after (l.take k) V) := by
  rw [← after_append, List.take_append_drop]

end Cert.Lib

end
-- ==== Proof.RefValue.lean ====
/-
  THE REFERENCE'S RESULT, read off its run a stretch at a time.

  The reference is a straight line of 106 host operations; after its run every buffer holds the fold of the operations over
  the launch contents. The line is cut into seven stretches. From ANY contents: the first leaves the source list, the
  destination list, and — from the degrees — which nodes have a positive degree and 1/sqrt of each degree; the second each
  node's factor; the third every entry's weight; the fourth the first layer's aggregation; the fifth the step between the
  layers; the sixth the second layer's aggregation; the seventh the biased result — each the matching piece of `Spec`
  applied to the few buffers the stretch reads, and every buffer a later stretch still reads is kept. Chained, the result
  buffer holds `Spec.net` of the ten arguments; and no operation writes an argument.
-/
import proofs.«128679_j89386859365068_1_alg».proof.Proof.RefRunP
import proofs.«128679_j89386859365068_1_alg».proof.Proof.Spec
import proofs.«128679_j89386859365068_1_alg».proof.Proof.LibAfter

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable (W : Valuation τ sig (Elt Ideal))

/-! ## The first stretch: the lists and the degrees -/

set_option maxHeartbeats 4000000 in
theorem s1_src : after (ops1 (F := Ideal)) W (Proc.devRef .tc main_v3) = Cert.Spec.src (W (Proc.devRef .tc main_arg1)) := by
  dsimp only [ops1]; after_results; rfl
set_option maxHeartbeats 4000000 in
theorem s1_dst : after (ops1 (F := Ideal)) W (Proc.devRef .tc main_v6) = Cert.Spec.dst (W (Proc.devRef .tc main_arg1)) := by
  dsimp only [ops1]; after_results; rfl
set_option maxHeartbeats 4000000 in
theorem s1_pos : after (ops1 (F := Ideal)) W (Proc.devRef .tc main_v12) = Cert.Spec.degPos (Cert.Spec.dst (W (Proc.devRef .tc main_arg1))) := by
  dsimp only [ops1]; after_results; rfl
set_option maxHeartbeats 4000000 in
theorem s1_rsq : after (ops1 (F := Ideal)) W (Proc.devRef .tc main_v15) = Cert.Spec.degRsqrt (Cert.Spec.dst (W (Proc.devRef .tc main_arg1))) := by
  dsimp only [ops1]; after_results; rfl
set_option maxHeartbeats 4000000 in
theorem s1_cst : after (ops1 (F := Ideal)) W (Proc.devRef .tc main_cst_3) = constant (F := Ideal) S_ .f32 0x00000000#32 := by
  dsimp only [ops1]; after_results
theorem s1_arg0 : after (ops1 (F := Ideal)) W (Proc.devRef .tc main_arg0) = W (Proc.devRef .tc main_arg0) := by
  after_results_simp
theorem s1_arg2 : after (ops1 (F := Ideal)) W (Proc.devRef .tc main_arg2) = W (Proc.devRef .tc main_arg2) := by
  after_results_simp
theorem s1_arg3 : after (ops1 (F := Ideal)) W (Proc.devRef .tc main_arg3) = W (Proc.devRef .tc main_arg3) := by
  after_results_simp
theorem s1_arg4 : after (ops1 (F := Ideal)) W (Proc.devRef .tc main_arg4) = W (Proc.devRef .tc main_arg4) := by
  after_results_simp
theorem s1_arg5 : after (ops1 (F := Ideal)) W (Proc.devRef .tc main_arg5) = W (Proc.devRef .tc main_arg5) := by
  after_results_simp
theorem s1_arg6 : after (ops1 (F := Ideal)) W (Proc.devRef .tc main_arg6) = W (Proc.devRef .tc main_arg6) := by
  after_results_simp
theorem s1_arg7 : after (ops1 (F := Ideal)) W (Proc.devRef .tc main_arg7) = W (Proc.devRef .tc main_arg7) := by
  after_results_simp
theorem s1_arg8 : after (ops1 (F := Ideal)) W (Proc.devRef .tc main_arg8) = W (Proc.devRef .tc main_arg8) := by
  after_results_simp
theorem s1_arg9 : after (ops1 (F := Ideal)) W (Proc.devRef .tc main_arg9) = W (Proc.devRef .tc main_arg9) := by
  after_results_simp

/-! ## The second stretch: the nodes' factors -/

theorem s2_dinv : after (ops2 (F := Ideal)) W (Proc.devRef .tc main_v16)
    = Cert.Spec.dinv (W (Proc.devRef .tc main_v12)) (W (Proc.devRef .tc main_v15)) (W (Proc.devRef .tc main_cst_3)) := by
  after_results_simp <;> rfl
theorem s2_v3 : after (ops2 (F := Ideal)) W (Proc.devRef .tc main_v3) = W (Proc.devRef .tc main_v3) := by
  after_results_simp
theorem s2_v6 : after (ops2 (F := Ideal)) W (Proc.devRef .tc main_v6) = W (Proc.devRef .tc main_v6) := by
  after_results_simp
theorem s2_arg0 : after (ops2 (F := Ideal)) W (Proc.devRef .tc main_arg0) = W (Proc.devRef .tc main_arg0) := by
  after_results_simp
theorem s2_arg2 : after (ops2 (F := Ideal)) W (Proc.devRef .tc main_arg2) = W (Proc.devRef .tc main_arg2) := by
  after_results_simp
theorem s2_arg3 : after (ops2 (F := Ideal)) W (Proc.devRef .tc main_arg3) = W (Proc.devRef .tc main_arg3) := by
  after_results_simp
theorem s2_arg4 : after (ops2 (F := Ideal)) W (Proc.devRef .tc main_arg4) = W (Proc.devRef .tc main_arg4) := by
  after_results_simp
theorem s2_arg5 : after (ops2 (F := Ideal)) W (Proc.devRef .tc main_arg5) = W (Proc.devRef .tc main_arg5) := by
  after_results_simp
theorem s2_arg6 : after (ops2 (F := Ideal)) W (Proc.devRef .tc main_arg6) = W (Proc.devRef .tc main_arg6) := by
  after_results_simp
theorem s2_arg7 : after (ops2 (F := Ideal)) W (Proc.devRef .tc main_arg7) = W (Proc.devRef .tc main_arg7) := by
  after_results_simp
theorem s2_arg8 : after (ops2 (F := Ideal)) W (Proc.devRef .tc main_arg8) = W (Proc.devRef .tc main_arg8) := by
  after_results_simp
theorem s2_arg9 : after (ops2 (F := Ideal)) W (Proc.devRef .tc main_arg9) = W (Proc.devRef .tc main_arg9) := by
  after_results_simp

/-! ## The third stretch: the entries' weights -/

set_option maxHeartbeats 4000000 in
theorem s3_norm : after (ops3 (F := Ideal)) W (Proc.devRef .tc main_v31)
    = Cert.Spec.norm (W (Proc.devRef .tc main_v16)) (W (Proc.devRef .tc main_v3)) (W (Proc.devRef .tc main_v6)) := by
  after_results_simp <;> rfl
theorem s3_v3 : after (ops3 (F := Ideal)) W (Proc.devRef .tc main_v3) = W (Proc.devRef .tc main_v3) := by
  after_results_simp
theorem s3_v6 : after (ops3 (F := Ideal)) W (Proc.devRef .tc main_v6) = W (Proc.devRef .tc main_v6) := by
  after_results_simp
theorem s3_arg0 : after (ops3 (F := Ideal)) W (Proc.devRef .tc main_arg0) = W (Proc.devRef .tc main_arg0) := by
  after_results_simp
theorem s3_arg2 : after (ops3 (F := Ideal)) W (Proc.devRef .tc main_arg2) = W (Proc.devRef .tc main_arg2) := by
  after_results_simp
theorem s3_arg3 : after (ops3 (F := Ideal)) W (Proc.devRef .tc main_arg3) = W (Proc.devRef .tc main_arg3) := by
  after_results_simp
theorem s3_arg4 : after (ops3 (F := Ideal)) W (Proc.devRef .tc main_arg4) = W (Proc.devRef .tc main_arg4) := by
  after_results_simp
theorem s3_arg5 : after (ops3 (F := Ideal)) W (Proc.devRef .tc main_arg5) = W (Proc.devRef .tc main_arg5) := by
  after_results_simp
theorem s3_arg6 : after (ops3 (F := Ideal)) W (Proc.devRef .tc main_arg6) = W (Proc.devRef .tc main_arg6) := by
  after_results_simp
theorem s3_arg7 : after (ops3 (F := Ideal)) W (Proc.devRef .tc main_arg7) = W (Proc.devRef .tc main_arg7) := by
  after_results_simp
theorem s3_arg8 : after (ops3 (F := Ideal)) W (Proc.devRef .tc main_arg8) = W (Proc.devRef .tc main_arg8) := by
  after_results_simp
theorem s3_arg9 : after (ops3 (F := Ideal)) W (Proc.devRef .tc main_arg9) = W (Proc.devRef .tc main_arg9) := by
  after_results_simp

/-! ## The fourth stretch: the first product and aggregation -/

set_option maxHeartbeats 4000000 in
theorem s4_agg : after (ops4 (F := Ideal)) W (Proc.devRef .tc main_v45)
    = Cert.Spec.agg (Cert.Spec.mm (W (Proc.devRef .tc main_arg0)) (W (Proc.devRef .tc main_arg2))) (W (Proc.devRef .tc main_v3)) (W (Proc.devRef .tc main_v6)) (W (Proc.devRef .tc main_v31)) := by
  after_results_simp <;> rfl
theorem s4_v3 : after (ops4 (F := Ideal)) W (Proc.devRef .tc main_v3) = W (Proc.devRef .tc main_v3) := by
  after_results_simp
theorem s4_v6 : after (ops4 (F := Ideal)) W (Proc.devRef .tc main_v6) = W (Proc.devRef .tc main_v6) := by
  after_results_simp
theorem s4_v31 : after (ops4 (F := Ideal)) W (Proc.devRef .tc main_v31) = W (Proc.devRef .tc main_v31) := by
  after_results_simp
theorem s4_arg3 : after (ops4 (F := Ideal)) W (Proc.devRef .tc main_arg3) = W (Proc.devRef .tc main_arg3) := by
  after_results_simp
theorem s4_arg4 : after (ops4 (F := Ideal)) W (Proc.devRef .tc main_arg4) = W (Proc.devRef .tc main_arg4) := by
  after_results_simp
theorem s4_arg5 : after (ops4 (F := Ideal)) W (Proc.devRef .tc main_arg5) = W (Proc.devRef .tc main_arg5) := by
  after_results_simp
theorem s4_arg6 : after (ops4 (F := Ideal)) W (Proc.devRef .tc main_arg6) = W (Proc.devRef .tc main_arg6) := by
  after_results_simp
theorem s4_arg7 : after (ops4 (F := Ideal)) W (Proc.devRef .tc main_arg7) = W (Proc.devRef .tc main_arg7) := by
  after_results_simp
theorem s4_arg8 : after (ops4 (F := Ideal)) W (Proc.devRef .tc main_arg8) = W (Proc.devRef .tc main_arg8) := by
  after_results_simp
theorem s4_arg9 : after (ops4 (F := Ideal)) W (Proc.devRef .tc main_arg9) = W (Proc.devRef .tc main_arg9) := by
  after_results_simp

/-! ## The fifth stretch: the step between the layers -/

set_option maxHeartbeats 4000000 in
theorem s5_bn : after (ops5 (F := Ideal)) W (Proc.devRef .tc main_v68)
    = Cert.Spec.bn (W (Proc.devRef .tc main_v45)) (W (Proc.devRef .tc main_arg3)) (W (Proc.devRef .tc main_arg6)) (W (Proc.devRef .tc main_arg7)) (W (Proc.devRef .tc main_arg8)) (W (Proc.devRef .tc main_arg9)) := by
  after_results_simp <;> rfl
theorem s5_v3 : after (ops5 (F := Ideal)) W (Proc.devRef .tc main_v3) = W (Proc.devRef .tc main_v3) := by
  after_results_simp
theorem s5_v6 : after (ops5 (F := Ideal)) W (Proc.devRef .tc main_v6) = W (Proc.devRef .tc main_v6) := by
  after_results_simp
theorem s5_v31 : after (ops5 (F := Ideal)) W (Proc.devRef .tc main_v31) = W (Proc.devRef .tc main_v31) := by
  after_results_simp
theorem s5_arg4 : after (ops5 (F := Ideal)) W (Proc.devRef .tc main_arg4) = W (Proc.devRef .tc main_arg4) := by
  after_results_simp
theorem s5_arg5 : after (ops5 (F := Ideal)) W (Proc.devRef .tc main_arg5) = W (Proc.devRef .tc main_arg5) := by
  after_results_simp

/-! ## The sixth stretch: the second product and aggregation -/

set_option maxHeartbeats 4000000 in
theorem s6_agg : after (ops6 (F := Ideal)) W (Proc.devRef .tc main_v82)
    = Cert.Spec.agg (Cert.Spec.mm (W (Proc.devRef .tc main_v68)) (W (Proc.devRef .tc main_arg4))) (W (Proc.devRef .tc main_v3)) (W (Proc.devRef .tc main_v6)) (W (Proc.devRef .tc main_v31)) := by
  after_results_simp <;> rfl
theorem s6_arg5 : after (ops6 (F := Ideal)) W (Proc.devRef .tc main_arg5) = W (Proc.devRef .tc main_arg5) := by
  after_results_simp

/-! ## The seventh stretch: the last bias -/

theorem s7_out : after (ops7 (F := Ideal)) W (Proc.devRef .tc main_v85)
    = Cert.Spec.bias (W (Proc.devRef .tc main_v82)) (W (Proc.devRef .tc main_arg5)) := by
  after_results_simp <;> rfl

/-! ## The whole line -/

/-- After the 106 operations the result buffer holds the network of the ten arguments' contents. -/
theorem result : after (ops (F := Ideal)) W (Proc.devRef .tc main_v85)
    = Cert.Spec.net (W (Proc.devRef .tc main_arg0)) (W (Proc.devRef .tc main_arg1)) (W (Proc.devRef .tc main_arg2)) (W (Proc.devRef .tc main_arg3)) (W (Proc.devRef .tc main_arg4))
        (W (Proc.devRef .tc main_arg5)) (W (Proc.devRef .tc main_arg6)) (W (Proc.devRef .tc main_arg7)) (W (Proc.devRef .tc main_arg8)) (W (Proc.devRef .tc main_arg9)) := by
  rw [ops_cut, Cert.Lib.after_append, Cert.Lib.after_append, Cert.Lib.after_append, Cert.Lib.after_append, Cert.Lib.after_append, Cert.Lib.after_append]
  rw [s7_out, s6_agg, s6_arg5, s5_bn, s5_v3, s5_v6, s5_v31, s5_arg4, s5_arg5, s4_agg, s4_v3, s4_v6, s4_v31, s4_arg3, s4_arg4, s4_arg5,
    s4_arg6, s4_arg7, s4_arg8, s4_arg9, s3_norm, s3_v3, s3_v6, s3_arg0, s3_arg2, s3_arg3, s3_arg4, s3_arg5, s3_arg6, s3_arg7, s3_arg8, s3_arg9,
    s2_dinv, s2_v3, s2_v6, s2_arg0, s2_arg2, s2_arg3, s2_arg4, s2_arg5, s2_arg6, s2_arg7, s2_arg8, s2_arg9,
    s1_src, s1_dst, s1_pos, s1_rsq, s1_cst, s1_arg0, s1_arg2, s1_arg3, s1_arg4, s1_arg5, s1_arg6, s1_arg7, s1_arg8, s1_arg9]
  rfl

/-! ## The arguments are kept: no operation writes one -/

set_option maxHeartbeats 4000000 in
theorem kept_arg0 : after (ops (F := Ideal)) W (Proc.devRef .tc main_arg0) = W (Proc.devRef .tc main_arg0) := by
  after_results_simp
set_option maxHeartbeats 4000000 in
theorem kept_arg1 : after (ops (F := Ideal)) W (Proc.devRef .tc main_arg1) = W (Proc.devRef .tc main_arg1) := by
  after_results_simp
set_option maxHeartbeats 4000000 in
theorem kept_arg2 : after (ops (F := Ideal)) W (Proc.devRef .tc main_arg2) = W (Proc.devRef .tc main_arg2) := by
  after_results_simp
set_option maxHeartbeats 4000000 in
theorem kept_arg3 : after (ops (F := Ideal)) W (Proc.devRef .tc main_arg3) = W (Proc.devRef .tc main_arg3) := by
  after_results_simp
set_option maxHeartbeats 4000000 in
theorem kept_arg4 : after (ops (F := Ideal)) W (Proc.devRef .tc main_arg4) = W (Proc.devRef .tc main_arg4) := by
  after_results_simp
set_option maxHeartbeats 4000000 in
theorem kept_arg5 : after (ops (F := Ideal)) W (Proc.devRef .tc main_arg5) = W (Proc.devRef .tc main_arg5) := by
  after_results_simp
set_option maxHeartbeats 4000000 in
theorem kept_arg6 : after (ops (F := Ideal)) W (Proc.devRef .tc main_arg6) = W (Proc.devRef .tc main_arg6) := by
  after_results_simp
set_option maxHeartbeats 4000000 in
theorem kept_arg7 : after (ops (F := Ideal)) W (Proc.devRef .tc main_arg7) = W (Proc.devRef .tc main_arg7) := by
  after_results_simp
set_option maxHeartbeats 4000000 in
theorem kept_arg8 : after (ops (F := Ideal)) W (Proc.devRef .tc main_arg8) = W (Proc.devRef .tc main_arg8) := by
  after_results_simp
set_option maxHeartbeats 4000000 in
theorem kept_arg9 : after (ops (F := Ideal)) W (Proc.devRef .tc main_arg9) = W (Proc.devRef .tc main_arg9) := by
  after_results_simp

end Cert.ReferenceIdeal.RefValue

end
-- ==== Proof.lean ====
/-
  A two-layer graph convolution, computed by a program of four pipelined kernel launches among host operations, against
  its plain array reference: over the extended reals the two give the same result.

  Both programs build, by the same host operations, the source and destination lists of the edges and self loops, the
  nodes' degrees and every entry's weight 1/sqrt(degree of source) · 1/sqrt(degree of destination); both gather, scale and
  sum the rows of a product by those lists and weights. They differ only in how four steps are computed: the two products
  of the node features with a 96 × 96 weight matrix, the step between the layers (bias, negative values scaled by 0.05,
  then per column (y − mean) · 1/sqrt(variance + 1e-5) · gamma + beta) and the last bias are host operations on whole arrays
  in the reference, and launches over twenty blocks of 5000 rows in the kernel program. Block by block each launch writes
  the rows of the whole-array step (for a product: the same sum over the 96 columns, the operands' rounding to a shorter
  format being the identity on extended reals), and the blocks tile the rows; so every launch leaves what the
  reference's operations leave, the gathers and scatter-adds are applied to equal arrays, and the results agree — no
  law of arithmetic beyond that is used, so the inputs' finiteness is never opened. The idealized kernel is the printed kernel
  read at exact arithmetic (no rewrite was applied), and each program's run leaves its arguments as launched.
-/
import proofs.«128679_j89386859365068_1_alg».proof.Defs
import proofs.«128679_j89386859365068_1_alg».proof.Proof.Gen.Kernel
import proofs.«128679_j89386859365068_1_alg».proof.Proof.Gen.Kernel.Frame
import proofs.«128679_j89386859365068_1_alg».proof.Proof.Gen.KernelIdeal
import proofs.«128679_j89386859365068_1_alg».proof.Proof.Gen.KernelIdeal.Frame
import proofs.«128679_j89386859365068_1_alg».proof.Proof.Gen.ReferenceIdeal
import proofs.«128679_j89386859365068_1_alg».proof.Proof.Gen.Pre_finite_inputs
import proofs.«128679_j89386859365068_1_alg».proof.Proof.KernelRun
import proofs.«128679_j89386859365068_1_alg».proof.Proof.KernelValue
import proofs.«128679_j89386859365068_1_alg».proof.Proof.RefRunP
import proofs.«128679_j89386859365068_1_alg».proof.Proof.RefValue
import Idealize.ShloMosaic.Adequacy
import Idealize.ShloMosaic.Init

noncomputable section

namespace Cert.Proof

open Idealize.ShloMosaic Idealize.SL.Sem

/-- The printed kernel program runs, and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs, and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs — a straight line of host operations — and no operation writes an argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RefValue.kept_arg0 _),
     (h c Cert.ReferenceIdeal.main_arg1).trans (Cert.ReferenceIdeal.RefValue.kept_arg1 _),
     (h c Cert.ReferenceIdeal.main_arg2).trans (Cert.ReferenceIdeal.RefValue.kept_arg2 _),
     (h c Cert.ReferenceIdeal.main_arg3).trans (Cert.ReferenceIdeal.RefValue.kept_arg3 _),
     (h c Cert.ReferenceIdeal.main_arg4).trans (Cert.ReferenceIdeal.RefValue.kept_arg4 _),
     (h c Cert.ReferenceIdeal.main_arg5).trans (Cert.ReferenceIdeal.RefValue.kept_arg5 _),
     (h c Cert.ReferenceIdeal.main_arg6).trans (Cert.ReferenceIdeal.RefValue.kept_arg6 _),
     (h c Cert.ReferenceIdeal.main_arg7).trans (Cert.ReferenceIdeal.RefValue.kept_arg7 _),
     (h c Cert.ReferenceIdeal.main_arg8).trans (Cert.ReferenceIdeal.RefValue.kept_arg8 _),
     (h c Cert.ReferenceIdeal.main_arg9).trans (Cert.ReferenceIdeal.RefValue.kept_arg9 _)⟩)
    (Cert.ReferenceIdeal.ValueP.run_raw (F := Ideal) m ρ)

/-- The network of equal arguments is equal. -/
theorem net_congr [Cert.ReferenceIdeal.Facts] {x x' : FVec Ideal Cert.ReferenceIdeal.S100000x96 .f32} {e e' : IVec Cert.ReferenceIdeal.S2x800000 32}
    {w1 w1' w2 w2' : FVec Ideal Cert.ReferenceIdeal.S96x96 .f32} {b1 b1' b2 b2' g g' be be' mn mn' vr vr' : FVec Ideal Cert.ReferenceIdeal.S96 .f32}
    (h0 : x = x') (h1 : e = e') (h2 : w1 = w1') (h3 : b1 = b1') (h4 : w2 = w2') (h5 : b2 = b2') (h6 : g = g') (h7 : be = be')
    (h8 : mn = mn') (h9 : vr = vr') :
    Cert.Spec.net x e w1 b1 w2 b2 g be mn vr = Cert.Spec.net x' e' w1' b1' w2' b2' g' be' mn' vr' := by
  subst h0 h1 h2 h3 h4 h5 h6 h7 h8 h9; rfl

/-- Run from memories that agree on the ten arguments, the idealized kernel program and the idealized reference end with the
    same result array: the network of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Result.value m ρ c), (h c).2⟩)
      (Cert.KernelIdeal.Run.run_result (F := Ideal) m ρ)
  · refine (θ_run Cert.ReferenceIdeal.defs _ _).mono (fun r h c => ⟨?_,
      (h c Cert.ReferenceIdeal.main_arg0).trans (Cert.ReferenceIdeal.RefValue.kept_arg0 _),
      (h c Cert.ReferenceIdeal.main_arg1).trans (Cert.ReferenceIdeal.RefValue.kept_arg1 _),
      (h c Cert.ReferenceIdeal.main_arg2).trans (Cert.ReferenceIdeal.RefValue.kept_arg2 _),
      (h c Cert.ReferenceIdeal.main_arg3).trans (Cert.ReferenceIdeal.RefValue.kept_arg3 _),
      (h c Cert.ReferenceIdeal.main_arg4).trans (Cert.ReferenceIdeal.RefValue.kept_arg4 _),
      (h c Cert.ReferenceIdeal.main_arg5).trans (Cert.ReferenceIdeal.RefValue.kept_arg5 _),
      (h c Cert.ReferenceIdeal.main_arg6).trans (Cert.ReferenceIdeal.RefValue.kept_arg6 _),
      (h c Cert.ReferenceIdeal.main_arg7).trans (Cert.ReferenceIdeal.RefValue.kept_arg7 _),
      (h c Cert.ReferenceIdeal.main_arg8).trans (Cert.ReferenceIdeal.RefValue.kept_arg8 _),
      (h c Cert.ReferenceIdeal.main_arg9).trans (Cert.ReferenceIdeal.RefValue.kept_arg9 _)⟩)
      (Cert.ReferenceIdeal.ValueP.run_raw (F := Ideal) m' ρ')
    refine (h c Cert.ReferenceIdeal.main_v85).trans ((Cert.ReferenceIdeal.RefValue.result _).trans ?_)
    exact net_congr (hagree c).1 (hagree c).2.1 (hagree c).2.2.1 (hagree c).2.2.2.1 (hagree c).2.2.2.2.1 (hagree c).2.2.2.2.2.1
      (hagree c).2.2.2.2.2.2.1 (hagree c).2.2.2.2.2.2.2.1 (hagree c).2.2.2.2.2.2.2.2.1 (hagree c).2.2.2.2.2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
